-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8192x8192 .f32) (main_arg1 : FVec F S8192x512 .f32) (main_arg2 : FVec F S512x512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8192x8192 : Shape := ⟨2, ![8192, 8192]⟩
abbrev S8192x512 : Shape := ⟨2, ![8192, 512]⟩
abbrev S512x512 : Shape := ⟨2, ![512, 512]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 20
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .bf16⟩
  | .hbm, ⟨18, _⟩ => ⟨S512x512, .bf16⟩
  | .hbm, ⟨19, _⟩ => ⟨S8192x512, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S1024x1024, .f32⟩
  | .local _ .vmem, ⟨6, _⟩ => ⟨S1024x1024, .f32⟩
  | .local _ .vmem, ⟨7, _⟩ => ⟨S8192x512, .bf16⟩
  | .local _ .vmem, ⟨8, _⟩ => ⟨S512x512, .bf16⟩
  | .local _ .vmem, ⟨9, _⟩ => ⟨S1024x1, .f32⟩
  | .local _ .vmem, ⟨10, _⟩ => ⟨S1024x1, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let arg0 : BitVec 32 := BitVec.ofNat 32 (i 0).val
  let c1024_i32_8 : BitVec 32 := 1024#32
  let v19 : BitVec 32 := Scalar.muli arg0 c1024_i32_8
  v19
def k1_off1 (i : grid1.Coords) : Fin 2 → Nat :=
  let arg0 : BitVec 32 := BitVec.ofNat 32 (i 0).val
  let c1024_i32_8 : BitVec 32 := 1024#32
  let v19 : BitVec 32 := Scalar.muli arg0 c1024_i32_8
  let v20 : BitVec 32 := v19
  let v21 : Index := Scalar.indexCast v20
  let c0_9 : Index := 0#32
  ![v21.toNat, 0]
def k1_mult2 (i : grid1.Coords) : BitVec 32 :=
  let arg1 : BitVec 32 := BitVec.ofNat 32 (i 1).val
  let c1024_i32 : BitVec 32 := 1024#32
  let v3 : BitVec 32 := Scalar.muli arg1 c1024_i32
  v3
def k1_off2 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  h_S1024x512 : 0 < S1024x512.numel
  shapeCasts_S1024x512_S1024x512 : S1024x512.ShapeCasts S1024x512
  inb_S1024x512_S1024x512_0_0 : ∀ a, (![0, 0] : Fin 2 → Nat) a + S1024x512.size a ≤ S1024x512.size a
  inb_S1024x1024_S1024x1024_0_0 : ∀ a, (![0, 0] : Fin 2 → Nat) a + S1024x1024.size a ≤ S1024x1024.size a
  h_S1024x1024 : 0 < S1024x1024.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  k1_mult1_dvd : ∀ i : grid1.Coords, ∀ (k1_h1 : k1_cond1 i = 1#1), 1024 ∣ (k1_mult1 i).toNat
  k1_off1_inb : ∀ i : grid1.Coords, ∀ (k1_h1 : k1_cond1 i = 1#1), ∀ a, (k1_off1 i) a + S1024x512.size a ≤ S8192x512.size a
  k1_mult2_dvd : ∀ i : grid1.Coords, 1024 ∣ (k1_mult2 i).toNat
  k1_off2_inb : ∀ i : grid1.Coords, ∀ a, (k1_off2 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S8192x512, .f32⟩
  | .hbm, ⟨28, _⟩ => ⟨S8192x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.RowSumBits.lean ====
/-
  The row-sum region (the first pallas_call): a 4 × 4 grid over 2048 × 2048 blocks of the adjacency matrix. At a point
  (i, k) the body adds the lane sums of its block to a 2048 × 1 accumulator kept in scratch, which it resets at k = 0
  and copies to the output block at k = 3. Stated here, at any float instance and for any contents `V` of the
  TensorCore's buffers at the region's entry: the body's run in each of the three cases of (k = 0, k = 3), what the
  accumulator and the output block hold after each point (by recursion on the point, a point that is not the first of
  its row starting from what the point before left), the region's proof data with the accumulator tracked in the
  invariant, and the body obligation at every point.
-/
import proofs.«112809_j50096498540571_2_alg».proof.Proof.Gen.Kernel.Launch
import proofs.«112809_j50096498540571_2_alg».proof.Proof.Gen.Kernel.Skeleton
import proofs.«112809_j50096498540571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `k = 0`: the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)
/-- `k = 3`: the accumulator is copied out. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the output window is idle -/

theorem live_in : ∀ t : Fin cfg0.N, cfg0.idle 0 (grid0.coords t) = false := by decide +kernel
theorem idle_out_A : ∀ t : Fin cfg0.N, condFirst (grid0.coords t) → ¬condLast (grid0.coords t) → cfg0.idle 1 (grid0.coords t) = true := by decide +kernel
theorem noFlush_out_A : ∀ t : Fin cfg0.N, condFirst (grid0.coords t) → ¬condLast (grid0.coords t) → (cfg0.win 1).flush t = false := by decide +kernel
theorem idle_out_B : ∀ t : Fin cfg0.N, ¬condFirst (grid0.coords t) → ¬condLast (grid0.coords t) → cfg0.idle 1 (grid0.coords t) = true := by decide +kernel
theorem noFlush_out_B : ∀ t : Fin cfg0.N, ¬condFirst (grid0.coords t) → ¬condLast (grid0.coords t) → (cfg0.win 1).flush t = false := by decide +kernel
theorem live_out_C : ∀ t : Fin cfg0.N, ¬condFirst (grid0.coords t) → condLast (grid0.coords t) → cfg0.idle 1 (grid0.coords t) = false := by decide +kernel

/-! ## The memrefs the body is called with -/

abbrev VO : View sig .tc .vmem S2048x1 .f32 := (Memref.whole cc0_stg1_0 : Memref sig .tc .vmem S2048x1 .f32).view
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .f32 := win0_1.stage (cfg0.slots t 1)
abbrev hs1 (t : Fin cfg0.N) : (ms1 t).IsWhole := hstage0_1 ((cfg0.slots t 1).cast nbuf0_1)
/-- The accumulator: the kernel's scratch operand, a whole scoped buffer. -/
abbrev scM : Memref sig .tc .vmem S2048x1 .f32 := Memref.whole cc0_scratch0
abbrev VS : View sig .tc .vmem S2048x1 .f32 := scM.view

/-- The core's other scoped buffers (the second region's staging buffers and scratch), each at some contents: they
    ride through this region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-! ## The body's run, case by case -/

set_option maxHeartbeats 1000000 in
/-- Case A (`k = 0`): the accumulator, at anything, is reset and the block's lane sums added; the output block is
    handed back untouched. The pieces the accumulator ends with are found by the run. -/
noncomputable def runA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (`0 < k < 3`): the block's lane sums are added to the accumulator, which the point before left at `xs0`. -/
noncomputable def runB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (`k = 3`): the block's lane sums are added to the accumulator and the sum is stored into the output block. -/
noncomputable def runC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What each case leaves -/

/-- Cases A and B store nothing into the output block: a placeholder nothing consults (the window is idle there and
    not written back). -/
def outA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) : Vec F S2048x1 .f32 :=
  VO.read (Elt F) (VO.writes (Elt F) VO.junk (runA c i arg2 harg2 arg3 harg3 arg4 harg4 hc0 hc1 x0).1)
theorem scoverA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) (y : S2048x1.Idx) :
    ∃ pc ∈ (runA c i arg2 harg2 arg3 harg3 arg4 harg4 hc0 hc1 x0).2.1, y ∈ pc.1.set :=
  View.cover_of_tiledL (runA c i arg2 harg2 arg3 harg3 arg4 harg4 hc0 hc1 x0).2.1 S2048x1.size (by sl_kernel_rfl) y
/-- What case A leaves in the accumulator. -/
def soutA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) : Vec F S2048x1 .f32 :=
  VS.read (Elt F) (VS.writes (Elt F) VS.junk (runA c i arg2 harg2 arg3 harg3 arg4 harg4 hc0 hc1 x0).2.1)

def outB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) : Vec F S2048x1 .f32 :=
  VO.read (Elt F) (VO.writes (Elt F) VO.junk (runB c i arg2 harg2 arg3 harg3 arg4 harg4 hc0 hc1 x0 xs0).1)
theorem scoverB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) (y : S2048x1.Idx) :
    ∃ pc ∈ (runB c i arg2 harg2 arg3 harg3 arg4 harg4 hc0 hc1 x0 xs0).2.1, y ∈ pc.1.set :=
  View.cover_of_tiledL (runB c i arg2 harg2 arg3 harg3 arg4 harg4 hc0 hc1 x0 xs0).2.1 S2048x1.size (by sl_kernel_rfl) y
/-- What case B leaves in the accumulator. -/
def soutB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) : Vec F S2048x1 .f32 :=
  VS.read (Elt F) (VS.writes (Elt F) VS.junk (runB c i arg2 harg2 arg3 harg3 arg4 harg4 hc0 hc1 x0 xs0).2.1)

theorem coverC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) (y : S2048x1.Idx) :
    ∃ pc ∈ (runC c i arg2 harg2 arg3 harg3 arg4 harg4 hc0 hc1 x0 xs0).1, y ∈ pc.1.set :=
  View.cover_of_tiledL (runC c i arg2 harg2 arg3 harg3 arg4 harg4 hc0 hc1 x0 xs0).1 S2048x1.size (by sl_kernel_rfl) y
/-- What case C leaves in the output block. -/
def outC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) : Vec F S2048x1 .f32 :=
  VO.read (Elt F) (VO.writes (Elt F) VO.junk (runC c i arg2 harg2 arg3 harg3 arg4 harg4 hc0 hc1 x0 xs0).1)
theorem scoverC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) (y : S2048x1.Idx) :
    ∃ pc ∈ (runC c i arg2 harg2 arg3 harg3 arg4 harg4 hc0 hc1 x0 xs0).2.1, y ∈ pc.1.set :=
  View.cover_of_tiledL (runC c i arg2 harg2 arg3 harg3 arg4 harg4 hc0 hc1 x0 xs0).2.1 S2048x1.size (by sl_kernel_rfl) y
/-- What case C leaves in the accumulator. -/
def soutC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) : Vec F S2048x1 .f32 :=
  VS.read (Elt F) (VS.writes (Elt F) VS.junk (runC c i arg2 harg2 arg3 harg3 arg4 harg4 hc0 hc1 x0 xs0).2.1)

/-! ## The accumulation, point by point -/

/-- What the output block and the accumulator hold after the body at position `n`: the case the closed forms select,
    run at the point's memrefs and input block, from what the accumulator held after position `n - 1`. -/
def outsAt (c : Dev nD) : (n : ℕ) → n < cfg0.N → Vec F S2048x1 .f32 × Vec F S2048x1 .f32
  | 0, hn => (outA c (grid0.coords ⟨0, hn⟩) (ms0 ⟨0, hn⟩) (hs0 ⟨0, hn⟩) (ms1 ⟨0, hn⟩) (hs1 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩), soutA c (grid0.coords ⟨0, hn⟩) (ms0 ⟨0, hn⟩) (hs0 ⟨0, hn⟩) (ms1 ⟨0, hn⟩) (hs1 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩))
  | n + 1, hn =>
    if h0 : (n + 1) % 4 = 0 then
      if h1 : (n + 1) % 4 = 3 then
        False.elim (by omega)
      else
        (outA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondFirst ⟨n + 1, hn⟩).mpr h0) (fun h => h1 ((hcondLast ⟨n + 1, hn⟩).mp h)) (iblk V c 0 ⟨n + 1, hn⟩), soutA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondFirst ⟨n + 1, hn⟩).mpr h0) (fun h => h1 ((hcondLast ⟨n + 1, hn⟩).mp h)) (iblk V c 0 ⟨n + 1, hn⟩))
    else
      if h1 : (n + 1) % 4 = 3 then
        (outC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) ((hcondLast ⟨n + 1, hn⟩).mpr h1) (iblk V c 0 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) ((hcondLast ⟨n + 1, hn⟩).mpr h1) (iblk V c 0 ⟨n + 1, hn⟩) (outsAt c n (Nat.lt_of_succ_lt hn)).2)
      else
        (outB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (outsAt c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (outsAt c n (Nat.lt_of_succ_lt hn)).2)

theorem outsAt_A (c : Dev nD) (t : Fin cfg0.N) (h0 : t.val % 4 = 0) (h1 : ¬t.val % 4 = 3) :
    outsAt V c t.val t.isLt = (outA c (grid0.coords t) (ms0 t) (hs0 t) (ms1 t) (hs1 t) scM (Memref.isWhole_whole _) ((hcondFirst t).mpr h0) (fun h => h1 ((hcondLast t).mp h)) (iblk V c 0 t), soutA c (grid0.coords t) (ms0 t) (hs0 t) (ms1 t) (hs1 t) scM (Memref.isWhole_whole _) ((hcondFirst t).mpr h0) (fun h => h1 ((hcondLast t).mp h)) (iblk V c 0 t)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (outB c (grid0.coords t) (ms0 t) (hs0 t) (ms1 t) (hs1 t) scM (Memref.isWhole_whole _) (fun h => h0 ((hcondFirst t).mp h)) (fun h => h1 ((hcondLast t).mp h)) (iblk V c 0 t) (outsAt V c (t.val - 1) (Nat.lt_of_le_of_lt (Nat.sub_le _ _) t.isLt)).2, soutB c (grid0.coords t) (ms0 t) (hs0 t) (ms1 t) (hs1 t) scM (Memref.isWhole_whole _) (fun h => h0 ((hcondFirst t).mp h)) (fun h => h1 ((hcondLast t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (outC c (grid0.coords t) (ms0 t) (hs0 t) (ms1 t) (hs1 t) scM (Memref.isWhole_whole _) (fun h => h0 ((hcondFirst t).mp h)) ((hcondLast t).mpr h1) (iblk V c 0 t) (outsAt V c (t.val - 1) (Nat.lt_of_le_of_lt (Nat.sub_le _ _) t.isLt)).2, soutC c (grid0.coords t) (ms0 t) (hs0 t) (ms1 t) (hs1 t) scM (Memref.isWhole_whole _) (fun h => h0 ((hcondFirst t).mp h)) ((hcondLast t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The region's proof data -/

/-- The arrays as the region finds them; after the body at point `t` the input's buffer at its block and the output's
    at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem before_0 (c : Dev nD) (t : Fin cfg0.N) (d) : (dat V c).before 0 t d = iblk V c 0 t :=
  before_in_of V (dat V c) (A_eq V c 0) (after_0 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the closed forms say which case the point is in; the invariant hands the body the
    accumulator at what the point before left (at anything at the first point) and takes it back at this point's
    contents; the other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live_in t], after_0]
      rw [Dat.leavesExact_idle (dat V c) 1 t (idle_out_A t ((hcondFirst t).mpr h0) (fun h => h1 ((hcondLast t).mp h))) (noFlush_out_A t ((hcondFirst t).mpr h0) (fun h => h1 ((hcondLast t).mp h)))]
      rw [outsAt_A V c t h0 h1]
      unfold soutA; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩⟩
        iapply ((runA c (grid0.coords t) _ _ _ _ _ _ ((hcondFirst t).mpr h0) (fun h => h1 ((hcondLast t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((runA c (grid0.coords t) _ _ _ _ _ _ ((hcondFirst t).mpr h0) (fun h => h1 ((hcondLast t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
  · by_cases h1 : t.val % 4 = 3
    · rw [show (dat V c).leavesExact 0 t = owns (c : Thread nD τ) (ms0 t) fullShare ((dat V c).after 0 t) from by
        unfold Dat.leavesExact; rw [live_in t], after_0]
      rw [show (dat V c).leavesExact 1 t = owns (c : Thread nD τ) (ms1 t) fullShare ((dat V c).after 1 t) from by
        unfold Dat.leavesExact; rw [live_out_C t (fun h => h0 ((hcondFirst t).mp h)) ((hcondLast t).mpr h1)], after_1]
      rw [outsAt_C V c t h0 h1]
      unfold outC soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runC c (grid0.coords t) _ _ _ _ _ _ (fun h => h0 ((hcondFirst t).mp h)) ((hcondLast t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (coverC c _ _ _ _ _ _ _ _ _ _ _)
    · rw [show (dat V c).leavesExact 0 t = owns (c : Thread nD τ) (ms0 t) fullShare ((dat V c).after 0 t) from by
        unfold Dat.leavesExact; rw [live_in t], after_0]
      rw [Dat.leavesExact_idle (dat V c) 1 t (idle_out_B t (fun h => h0 ((hcondFirst t).mp h)) (fun h => h1 ((hcondLast t).mp h))) (noFlush_out_B t (fun h => h0 ((hcondFirst t).mp h)) (fun h => h1 ((hcondLast t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runB c (grid0.coords t) _ _ _ _ _ _ (fun h => h0 ((hcondFirst t).mp h)) (fun h => h1 ((hcondLast t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _)
            iexact Hoth
          iexact Hg
        isplitl [Ho]; · iexact Ho
        isplitl [H0]; · iexact H0
        iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, Hoth⟩, Hg⟩
  isplitl [HS0 Hoth]
  · isplitl [HS0]
    · iexists _; iexact HS0
    iexact Hoth
  iexact Hg

end Cert.Kernel.RowSum

end
-- ==== Proof.FusedBits.lean ====
/-
  The fused region (the second pallas_call): an 8 × 8 grid. At a point (i, k) the body multiplies the 1024 × 1024 block
  (i, k) of the adjacency matrix with rows k·1024 … of the scaled features (resident whole) and adds the product to a
  1024 × 512 accumulator kept in scratch, which at k = 0 it first sets to rows i·1024 … of the scaled features (the
  self loop); at k = 7 it multiplies the accumulator with the weights (resident whole), scales row r by the block's
  degree factor and stores the product into the output block. Stated here, at any float instance and for any contents
  `V` of the TensorCore's buffers at the region's entry: the body's run in each of the three cases of (k = 0, k = 7),
  what the accumulator and the output block hold after each point (by recursion on the point), the region's proof data
  with the accumulator tracked in the invariant, and the body obligation at every point.
-/
import proofs.«112809_j50096498540571_2_alg».proof.Proof.Gen.Kernel.Launch
import proofs.«112809_j50096498540571_2_alg».proof.Proof.Gen.Kernel.Skeleton
import proofs.«112809_j50096498540571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `k = 0`: the accumulator is set to the self-loop rows. -/
abbrev condFirst (i : grid1.Coords) : Prop := k1_cond1 i = 1#1
theorem hcondFirst : ∀ t : Fin cfg1.N, condFirst (grid1.coords t) ↔ t.val % 8 = 0 :=
  (by decide +kernel : ∀ t : Fin grid1.N, condFirst (grid1.coords t) ↔ t.val % 8 = 0)
/-- `k = 7`: the output block is computed from the accumulator. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem idle_out_A : ∀ t : Fin cfg1.N, condFirst (grid1.coords t) → ¬condLast (grid1.coords t) → cfg1.idle 4 (grid1.coords t) = true := by decide +kernel
theorem noFlush_out_A : ∀ t : Fin cfg1.N, condFirst (grid1.coords t) → ¬condLast (grid1.coords t) → (cfg1.win 4).flush t = false := by decide +kernel
theorem idle_out_B : ∀ t : Fin cfg1.N, ¬condFirst (grid1.coords t) → ¬condLast (grid1.coords t) → cfg1.idle 4 (grid1.coords t) = true := by decide +kernel
theorem noFlush_out_B : ∀ t : Fin cfg1.N, ¬condFirst (grid1.coords t) → ¬condLast (grid1.coords t) → (cfg1.win 4).flush t = false := by decide +kernel
theorem live_out_C : ∀ t : Fin cfg1.N, ¬condFirst (grid1.coords t) → condLast (grid1.coords t) → cfg1.idle 4 (grid1.coords t) = false := by decide +kernel

/-! ## The memrefs the body is called with -/

abbrev VO : View sig .tc .vmem S1024x512 .f32 := (Memref.whole cc1_stg4_0 : Memref sig .tc .vmem S1024x512 .f32).view
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x512 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .f32 := win1_4.stage (cfg1.slots t 4)
abbrev hs4 (t : Fin cfg1.N) : (ms4 t).IsWhole := hstage1_4 ((cfg1.slots t 4).cast nbuf1_4)
/-- The accumulator: the kernel's scratch operand, a whole scoped buffer. -/
abbrev scM : Memref sig .tc .vmem S1024x512 .f32 := Memref.whole cc1_scratch0
abbrev VS : View sig .tc .vmem S1024x512 .f32 := scM.view

/-- The core's other scoped buffers (the first region's staging buffers and scratch), each at some contents: they ride
    through this region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents. The accumulator is the last of the
    scoped buffers no window of this region stages, so the others come first. -/
theorem PhiA_split (c : Dev nD) :
    (Pipeline.ΦA spec1 c : sProp 𝕄) ⊣⊢ iprop(iprop((∃ d, owns (c : Thread nD τ) scM fullShare d) ∗ others c) ∗ (∃ r, prngReg c r)) := by
  unfold Pipeline.ΦA others; rw [scopedRest1_eq]; simp only [scM, owns_whole]
  constructor
  · iintro ⟨⟨Ha, Hb, Hc, Hd, He, Hs⟩, Hg⟩
    isplitr [Hg]
    · isplitl [Hs]; · iexact Hs
      isplitl [Ha]; · iexact Ha
      isplitl [Hb]; · iexact Hb
      isplitl [Hc]; · iexact Hc
      isplitl [Hd]; · iexact Hd
      iexact He
    iexact Hg
  · iintro ⟨⟨Hs, Ha, Hb, Hc, Hd, He⟩, Hg⟩
    isplitr [Hg]
    · isplitl [Ha]; · iexact Ha
      isplitl [Hb]; · iexact Hb
      isplitl [Hc]; · iexact Hc
      isplitl [Hd]; · iexact Hd
      isplitl [He]; · iexact He
      iexact Hs
    iexact Hg

/-! ## The body's run, case by case -/

set_option maxHeartbeats 2000000 in
/-- Case A (`k = 0`): the accumulator, at anything, is set to the self-loop rows and the block's product added; the
    output block is handed back untouched. -/
noncomputable def runA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i)
    (x0 : Vec F S1024x1024 .f32) (x1 : Vec F S8192x512 .bf16) (x2 : Vec F S512x512 .bf16) (x3 : Vec F S1024x1 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨[], ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- Case B (`0 < k < 7`): the block's product is added to the accumulator, which the point before left at `xs0`. -/
noncomputable def runB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i)
    (x0 : Vec F S1024x1024 .f32) (x1 : Vec F S8192x512 .bf16) (x2 : Vec F S512x512 .bf16) (x3 : Vec F S1024x1 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨[], ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- Case C (`k = 7`): the block's product is added to the accumulator, and the accumulator times the weights, row-scaled
    by the degree factors, is stored into the output block. -/
noncomputable def runC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i)
    (x0 : Vec F S1024x1024 .f32) (x1 : Vec F S8192x512 .bf16) (x2 : Vec F S512x512 .bf16) (x3 : Vec F S1024x1 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves -/

/-- Cases A and B store nothing into the output block: a placeholder nothing consults (the window is idle there and
    not written back). -/
def outA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) : Vec F S1024x512 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) (y : S1024x512.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S1024x512.size (by sl_kernel_rfl) y
/-- What case A leaves in the accumulator. -/
def soutA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) : Vec F S1024x512 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) : Vec F S1024x512 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S1024x512.size (by sl_kernel_rfl) y
/-- What case B leaves in the accumulator. -/
def soutB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) : Vec F S1024x512 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S1024x512.size (by sl_kernel_rfl) y
/-- What case C leaves in the output block. -/
def outC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) : Vec F S1024x512 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S1024x512.size (by sl_kernel_rfl) y
/-- What case C leaves in the accumulator. -/
def soutC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) : Vec F S1024x512 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation, point by point -/

/-- What the output block and the accumulator hold after the body at position `n`: the case the closed forms select,
    run at the point's memrefs and input blocks, from what the accumulator held after position `n - 1`. -/
def outsAt (c : Dev nD) : (n : ℕ) → n < cfg1.N → Vec F S1024x512 .f32 × Vec F S1024x512 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      if h1 : (n + 1) % 8 = 7 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg1.N) (h0 : t.val % 8 = 0) (h1 : ¬t.val % 8 = 7) :
    outsAt V c t.val t.isLt = (outA c (grid1.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk V c 0 t) (iblk V c 1 t) (iblk V c 2 t) (iblk V c 3 t), soutA c (grid1.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = (outB c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = (outC c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The region's proof data -/

/-- The arrays as the region finds them; after the body at point `t` each input's buffer at its block and the
    output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the closed forms say which case the point is in; the invariant hands the body the
    accumulator at what the point before left (at anything at the first point) and takes it back at this point's
    contents; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [Dat.leavesExact_idle (dat V c) 4 t (idle_out_A t ((hcondFirst t).mpr h0) (fun h => h1 ((hcondLast t).mp h))) (noFlush_out_A t ((hcondFirst t).mpr h0) (fun h => h1 ((hcondLast t).mp h)))]
      rw [outsAt_A V c t h0 h1]
      unfold soutA; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA_split c).1 $$ HΦ
        icases HΦ' with ⟨⟨HS0, Hoth⟩, Hg⟩
        iapply ((runA c (grid1.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [show (dat V c).leavesExact 4 t = owns (c : Thread nD τ) (ms4 t) fullShare ((dat V c).after 4 t) from by
        unfold Dat.leavesExact; rw [live_out_C t (fun h => h0 ((hcondFirst t).mp h)) ((hcondLast t).mpr h1)], after_4]
      rw [outsAt_C V c t h0 h1]
      unfold outC soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runC c (grid1.coords t) _ _ _ _ _ _ _ _ _ _ _ _ (fun h => h0 ((hcondFirst t).mp h)) ((hcondLast t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC c _ _ _ _ _ _ _ _ _ _ _ _ _ _ _ _ _ _ _ _ )
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [Dat.leavesExact_idle (dat V c) 4 t (idle_out_B t (fun h => h0 ((hcondFirst t).mp h)) (fun h => h1 ((hcondLast t).mp h))) (noFlush_out_B t (fun h => h0 ((hcondFirst t).mp h)) (fun h => h1 ((hcondLast t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runB c (grid1.coords t) _ _ _ _ _ _ _ _ _ _ _ _ (fun h => h0 ((hcondFirst t).mp h)) (fun h => h1 ((hcondLast t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg1.N) ⊢ Pipeline.ΦA spec1 c := by
  have ht : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ ht]
  iintro ⟨⟨HS0, Hoth⟩, Hg⟩
  iapply (PhiA_split c).2
  isplitl [HS0 Hoth]
  · isplitl [HS0]
    · iexists _; iexact HS0
    iexact Hoth
  iexact Hg

end Cert.Kernel.Fused

end
-- ==== Proof.RunBits.lean ====
/-
  The whole run of @main: the row-sum region, three stretches of host operations (the degree factor from the row
  sums; the select; the scaled, narrowed features and weights), the fused region. The contents of the TensorCore's
  unscoped buffers are folded through the five items — a region leaves its arrays at what its write-backs leave and every
  other buffer alone, a host stretch applies its operations — and every weakly fair execution terminates with every
  unscoped buffer at the last fold. From it: the three argument arrays end as launched (no item writes one), and the
  result array ends at what the fused region's write-backs leave. Stated at any float instance.
-/
import proofs.«112809_j50096498540571_2_alg».proof.Proof.Gen.Kernel.Regions
import proofs.«112809_j50096498540571_2_alg».proof.Proof.RowSumBits
import proofs.«112809_j50096498540571_2_alg».proof.Proof.FusedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each item boundary -/

/-- Core `c`'s buffers at launch. -/
abbrev B0 (c : Dev nD) : Valuation τ sig (Elt F) := fun b => m (c, b)
/-- The same read at the TensorCore's references: what the row-sum region is entered with. -/
abbrev E0 : (c : Dev nD) → (b : Ref sig .tc) → Buf (Elt F) ((c : Thread nD τ).loc b) := fun c b => B0 m c b
/-- After the row-sum region: its arrays at what the pipeline leaves, every other buffer as entered. -/
def B1 (c : Dev nD) : Valuation τ sig (Elt F) :=
  Pipeline.withArrays spec0 c (B0 m c) fun w => (RowSum.dat (E0 m) c).arrAt w cfg0.N
theorem B1_arr (c : Dev nD) (w : Fin cfg0.W) :
    B1 m c (Proc.devRef .tc (Pipeline.arrRef spec0 w)) = (RowSum.dat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (RowSum.dat (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After each of the three host stretches. -/
abbrev B2 : Dev nD → Valuation τ sig (Elt F) := fun c => StableHlo.after hostOps1 (B1 m c)
abbrev B3 : Dev nD → Valuation τ sig (Elt F) := fun c => StableHlo.after hostOps1_1 (B2 m c)
abbrev B4 : Dev nD → Valuation τ sig (Elt F) := fun c => StableHlo.after hostOps1_2 (B3 m c)
/-- What the fused region is entered with. -/
abbrev E4 : (c : Dev nD) → (b : Ref sig .tc) → Buf (Elt F) ((c : Thread nD τ).loc b) := fun c b => B4 m c b
/-- After the fused region. -/
def B5 (c : Dev nD) : Valuation τ sig (Elt F) :=
  Pipeline.withArrays spec1 c (B4 m c) fun w => (Fused.dat (E4 m) c).arrAt w cfg1.N
theorem B5_arr (c : Dev nD) (w : Fin cfg1.W) :
    B5 m c (Proc.devRef .tc (Pipeline.arrRef spec1 w)) = (Fused.dat (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev E5 : (c : Dev nD) → (b : Ref sig .tc) → Buf (Elt F) ((c : Thread nD τ).loc b) := fun c b => B5 m c b
theorem hF1 (c : Dev nD) (w : Fin cfg1.W) : (Fused.dat (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

/-! ## No item writes an argument -/

/-- `main_arg0` reaches the end as launched. -/
theorem B5_main_arg0 (c : Dev nD) : B5 m c (Proc.devRef .tc main_arg0) = m ((c : Thread nD τ).loc main_arg0) :=
  calc B5 m c (Proc.devRef .tc main_arg0)
    _ = B4 m c (Proc.devRef .tc main_arg0) := (B5_arr m c 0).trans (((Fused.dat (E4 m) c).arrAt_in 0 rfl _).trans (Fused.A_eq (E4 m) c 0))
    _ = B3 m c (Proc.devRef .tc main_arg0) := StableHlo.after_of_writes_sub hostOps1_2 _ hostOps1_2_writes (by decide)
    _ = B2 m c (Proc.devRef .tc main_arg0) := StableHlo.after_of_writes_sub hostOps1_1 _ hostOps1_1_writes (by decide)
    _ = B1 m c (Proc.devRef .tc main_arg0) := StableHlo.after_of_writes_sub hostOps1 _ hostOps1_writes (by decide)
    _ = B0 m c (Proc.devRef .tc main_arg0) := (B1_arr m c 0).trans (((RowSum.dat (E0 m) c).arrAt_in 0 rfl _).trans (RowSum.A_eq (E0 m) c 0))
    _ = m ((c : Thread nD τ).loc main_arg0) := rfl

/-- `main_arg1` reaches the end as launched. -/
theorem B5_main_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = B3 m c (Proc.devRef .tc main_arg1) := StableHlo.after_of_writes_sub hostOps1_2 _ hostOps1_2_writes (by decide)
    _ = B2 m c (Proc.devRef .tc main_arg1) := StableHlo.after_of_writes_sub hostOps1_1 _ hostOps1_1_writes (by decide)
    _ = B1 m c (Proc.devRef .tc main_arg1) := StableHlo.after_of_writes_sub hostOps1 _ hostOps1_writes (by decide)
    _ = B0 m c (Proc.devRef .tc main_arg1) := B1_of_ne m c main_arg1 (by decide)
    _ = m ((c : Thread nD τ).loc main_arg1) := rfl

/-- `main_arg2` reaches the end as launched. -/
theorem B5_main_arg2 (c : Dev nD) : B5 m c (Proc.devRef .tc main_arg2) = m ((c : Thread nD τ).loc main_arg2) :=
  calc B5 m c (Proc.devRef .tc main_arg2)
    _ = B4 m c (Proc.devRef .tc main_arg2) := B5_of_ne m c main_arg2 (by decide)
    _ = B3 m c (Proc.devRef .tc main_arg2) := StableHlo.after_of_writes_sub hostOps1_2 _ hostOps1_2_writes (by decide)
    _ = B2 m c (Proc.devRef .tc main_arg2) := StableHlo.after_of_writes_sub hostOps1_1 _ hostOps1_1_writes (by decide)
    _ = B1 m c (Proc.devRef .tc main_arg2) := StableHlo.after_of_writes_sub hostOps1 _ hostOps1_writes (by decide)
    _ = B0 m c (Proc.devRef .tc main_arg2) := B1_of_ne m c main_arg2 (by decide)
    _ = m ((c : Thread nD τ).loc main_arg2) := rfl

/-! ## The proof data family and the thread state -/

abbrev admT : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) admT p) c
  | ⟨0, _⟩ => fun c => RowSum.dat (E0 m) c
  | ⟨1, _⟩ => fun c => Fused.dat (E4 m) c
abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (B5 m c) ∗ ∃ r, prngReg c r)

/-! ## The regions as items -/

set_option backward.isDefEq.respectTransparency.types false in
/-- The regRowSum region over the thread state: entered with every unscoped buffer at `B0`, left with them at `B1`.
    Its arrays are split out of the unscoped buffers and put back at their exit contents; the generator register and
    the scoped buffers no window stages go into the invariant and come back; nothing is owed; the kernel has no
    semaphore of its own. -/
def regRowSum : Pipeline.RegionSeg (pcfgs (F := F)) admT (pdats m) () defs₀ 𝒱n Ln lvn 0 where
  win := launch0.win.to₀
  block_pos := launch0.block_pos
  stage_whole := launch0.stage_whole
  K := PEmpty
  osem k := k.elim
  ho := Pipeline.OwnSemFacts.none _
  hbody c := (RowSum.body_obligation (E0 m) c).loose
  hwaits := Pipeline.hwaits_of_owed_zero _ _ _ _ Ln lvn 0 fun _ _ => rfl
  pre c := iprop(StableHlo.held (c : Thread nD τ) (Pipeline.ucRefs τ sig) (B0 m c) ∗ Rst c)
  post c := iprop(StableHlo.held (c : Thread nD τ) (Pipeline.ucRefs τ sig) (B1 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := RowSum.hin (E0 m) c
    unfold Pipeline.ΦA at h0
    rw [show (pdats m 0 c).Φ 0 = (RowSum.dat (E0 m) c).Φ 0 from rfl]
    iintro ⟨Hp, -, Hr⟩
    iapply h0
    isplitl [Hr]; · iexact Hr
    iexact Hp
  hout c := by
    rw [Pipeline.ownSems0_none]
    have h1 := RowSum.hout (E0 m) c
    unfold Pipeline.ΦA at h1
    rw [show (pdats m 0 c).Φ (Fin.last _) = (RowSum.dat (E0 m) c).Φ (Fin.last cfg0.N) from rfl]
    iintro HΦ
    ihave H := h1 $$ HΦ
    icases H with ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The regFused region over the thread state: entered with every unscoped buffer at `B4`, left with them at `B5`.
    Its arrays are split out of the unscoped buffers and put back at their exit contents; the generator register and
    the scoped buffers no window stages go into the invariant and come back; nothing is owed; the kernel has no
    semaphore of its own. -/
def regFused : Pipeline.RegionSeg (pcfgs (F := F)) admT (pdats m) () defs₀ 𝒱n Ln lvn 1 where
  win := launch1.win.to₀
  block_pos := launch1.block_pos
  stage_whole := launch1.stage_whole
  K := PEmpty
  osem k := k.elim
  ho := Pipeline.OwnSemFacts.none _
  hbody c := (Fused.body_obligation (E4 m) c).loose
  hwaits := Pipeline.hwaits_of_owed_zero _ _ _ _ Ln lvn 1 fun _ _ => rfl
  pre c := iprop(StableHlo.held (c : Thread nD τ) (Pipeline.ucRefs τ sig) (B4 m c) ∗ Rst c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := Fused.hin (E4 m) c
    unfold Pipeline.ΦA at h0
    rw [show (pdats m 1 c).Φ 0 = (Fused.dat (E4 m) c).Φ 0 from rfl]
    iintro ⟨Hp, -, Hr⟩
    iapply h0
    isplitl [Hr]; · iexact Hr
    iexact Hp
  hout c := by
    rw [Pipeline.ownSems0_none]
    have h1 := Fused.hout (E4 m) c
    unfold Pipeline.ΦA at h1
    rw [show (pdats m 1 c).Φ (Fin.last _) = (Fused.dat (E4 m) c).Φ (Fin.last cfg1.N) from rfl]
    iintro HΦ
    ihave H := h1 $$ HΦ
    icases H with ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) admT (pdats m) () defs₀ 𝒱n Ln lvn) :=
  [ .region (regRowSum m),
    .host (hseg hostOps1 hostOps1_sub hostOps1_fresh (B1 m)),
    .host (hseg hostOps1_1 hostOps1_1_sub hostOps1_1_fresh (B2 m)),
    .host (hseg hostOps1_2 hostOps1_2_sub hostOps1_2_fresh (B3 m)),
    .region (regFused m) ]

set_option backward.isDefEq.respectTransparency.types false in
/-- THE RUN: from any memory with zero counters, every weakly fair execution of @main terminates, nothing faulting,
    and every final state has every unscoped buffer at the last fold `B5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admT (pdats m) () cellOf_inj emb₁ defs₀ 𝒱n Ln lvn m ρ main (items m)
    (fun c Q => by
      rewrite [main_chain c, Pipeline.Seg.run_eq_chain,
        show (items m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tlast m)
    (hch := ⟨fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c)⟩) (run_all m ρ)

/-- The run with the result array named: it ends at what the fused region's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v11) = (Fused.dat (E4 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v11 (by decide))).trans (B5_arr m c 4),
     (h c _ (mem_uc main_arg0 (by decide))).trans (B5_main_arg0 m c),
     (h c _ (mem_uc main_arg1 (by decide))).trans (B5_main_arg1 m c),
     (h c _ (mem_uc main_arg2 (by decide))).trans (B5_main_arg2 m c)⟩) (run_all m ρ)

end Cert.Kernel.Run

end
-- ==== Proof.RowSumIdeal.lean ====
/-
  The row-sum region (the first pallas_call): a 4 × 4 grid over 2048 × 2048 blocks of the adjacency matrix. At a point
  (i, k) the body adds the lane sums of its block to a 2048 × 1 accumulator kept in scratch, which it resets at k = 0
  and copies to the output block at k = 3. Stated here, at any float instance and for any contents `V` of the
  TensorCore's buffers at the region's entry: the body's run in each of the three cases of (k = 0, k = 3), what the
  accumulator and the output block hold after each point (by recursion on the point, a point that is not the first of
  its row starting from what the point before left), the region's proof data with the accumulator tracked in the
  invariant, and the body obligation at every point.
-/
import proofs.«112809_j50096498540571_2_alg».proof.Proof.Gen.KernelIdeal.Launch
import proofs.«112809_j50096498540571_2_alg».proof.Proof.Gen.KernelIdeal.Skeleton
import proofs.«112809_j50096498540571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `k = 0`: the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)
/-- `k = 3`: the accumulator is copied out. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the output window is idle -/

theorem live_in : ∀ t : Fin cfg0.N, cfg0.idle 0 (grid0.coords t) = false := by decide +kernel
theorem idle_out_A : ∀ t : Fin cfg0.N, condFirst (grid0.coords t) → ¬condLast (grid0.coords t) → cfg0.idle 1 (grid0.coords t) = true := by decide +kernel
theorem noFlush_out_A : ∀ t : Fin cfg0.N, condFirst (grid0.coords t) → ¬condLast (grid0.coords t) → (cfg0.win 1).flush t = false := by decide +kernel
theorem idle_out_B : ∀ t : Fin cfg0.N, ¬condFirst (grid0.coords t) → ¬condLast (grid0.coords t) → cfg0.idle 1 (grid0.coords t) = true := by decide +kernel
theorem noFlush_out_B : ∀ t : Fin cfg0.N, ¬condFirst (grid0.coords t) → ¬condLast (grid0.coords t) → (cfg0.win 1).flush t = false := by decide +kernel
theorem live_out_C : ∀ t : Fin cfg0.N, ¬condFirst (grid0.coords t) → condLast (grid0.coords t) → cfg0.idle 1 (grid0.coords t) = false := by decide +kernel

/-! ## The memrefs the body is called with -/

abbrev VO : View sig .tc .vmem S2048x1 .f32 := (Memref.whole cc0_stg1_0 : Memref sig .tc .vmem S2048x1 .f32).view
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .f32 := win0_1.stage (cfg0.slots t 1)
abbrev hs1 (t : Fin cfg0.N) : (ms1 t).IsWhole := hstage0_1 ((cfg0.slots t 1).cast nbuf0_1)
/-- The accumulator: the kernel's scratch operand, a whole scoped buffer. -/
abbrev scM : Memref sig .tc .vmem S2048x1 .f32 := Memref.whole cc0_scratch0
abbrev VS : View sig .tc .vmem S2048x1 .f32 := scM.view

/-- The core's other scoped buffers (the second region's staging buffers and scratch), each at some contents: they
    ride through this region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-! ## The body's run, case by case -/

set_option maxHeartbeats 1000000 in
/-- Case A (`k = 0`): the accumulator, at anything, is reset and the block's lane sums added; the output block is
    handed back untouched. The pieces the accumulator ends with are found by the run. -/
noncomputable def runA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case B (`0 < k < 3`): the block's lane sums are added to the accumulator, which the point before left at `xs0`. -/
noncomputable def runB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Case C (`k = 3`): the block's lane sums are added to the accumulator and the sum is stored into the output block. -/
noncomputable def runC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What each case leaves -/

/-- Cases A and B store nothing into the output block: a placeholder nothing consults (the window is idle there and
    not written back). -/
def outA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) : Vec F S2048x1 .f32 :=
  VO.read (Elt F) (VO.writes (Elt F) VO.junk (runA c i arg2 harg2 arg3 harg3 arg4 harg4 hc0 hc1 x0).1)
theorem scoverA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) (y : S2048x1.Idx) :
    ∃ pc ∈ (runA c i arg2 harg2 arg3 harg3 arg4 harg4 hc0 hc1 x0).2.1, y ∈ pc.1.set :=
  View.cover_of_tiledL (runA c i arg2 harg2 arg3 harg3 arg4 harg4 hc0 hc1 x0).2.1 S2048x1.size (by sl_kernel_rfl) y
/-- What case A leaves in the accumulator. -/
def soutA (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) : Vec F S2048x1 .f32 :=
  VS.read (Elt F) (VS.writes (Elt F) VS.junk (runA c i arg2 harg2 arg3 harg3 arg4 harg4 hc0 hc1 x0).2.1)

def outB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) : Vec F S2048x1 .f32 :=
  VO.read (Elt F) (VO.writes (Elt F) VO.junk (runB c i arg2 harg2 arg3 harg3 arg4 harg4 hc0 hc1 x0 xs0).1)
theorem scoverB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) (y : S2048x1.Idx) :
    ∃ pc ∈ (runB c i arg2 harg2 arg3 harg3 arg4 harg4 hc0 hc1 x0 xs0).2.1, y ∈ pc.1.set :=
  View.cover_of_tiledL (runB c i arg2 harg2 arg3 harg3 arg4 harg4 hc0 hc1 x0 xs0).2.1 S2048x1.size (by sl_kernel_rfl) y
/-- What case B leaves in the accumulator. -/
def soutB (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) : Vec F S2048x1 .f32 :=
  VS.read (Elt F) (VS.writes (Elt F) VS.junk (runB c i arg2 harg2 arg3 harg3 arg4 harg4 hc0 hc1 x0 xs0).2.1)

theorem coverC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) (y : S2048x1.Idx) :
    ∃ pc ∈ (runC c i arg2 harg2 arg3 harg3 arg4 harg4 hc0 hc1 x0 xs0).1, y ∈ pc.1.set :=
  View.cover_of_tiledL (runC c i arg2 harg2 arg3 harg3 arg4 harg4 hc0 hc1 x0 xs0).1 S2048x1.size (by sl_kernel_rfl) y
/-- What case C leaves in the output block. -/
def outC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) : Vec F S2048x1 .f32 :=
  VO.read (Elt F) (VO.writes (Elt F) VO.junk (runC c i arg2 harg2 arg3 harg3 arg4 harg4 hc0 hc1 x0 xs0).1)
theorem scoverC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) (y : S2048x1.Idx) :
    ∃ pc ∈ (runC c i arg2 harg2 arg3 harg3 arg4 harg4 hc0 hc1 x0 xs0).2.1, y ∈ pc.1.set :=
  View.cover_of_tiledL (runC c i arg2 harg2 arg3 harg3 arg4 harg4 hc0 hc1 x0 xs0).2.1 S2048x1.size (by sl_kernel_rfl) y
/-- What case C leaves in the accumulator. -/
def soutC (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) : Vec F S2048x1 .f32 :=
  VS.read (Elt F) (VS.writes (Elt F) VS.junk (runC c i arg2 harg2 arg3 harg3 arg4 harg4 hc0 hc1 x0 xs0).2.1)

/-! ## The accumulation, point by point -/

/-- What the output block and the accumulator hold after the body at position `n`: the case the closed forms select,
    run at the point's memrefs and input block, from what the accumulator held after position `n - 1`. -/
def outsAt (c : Dev nD) : (n : ℕ) → n < cfg0.N → Vec F S2048x1 .f32 × Vec F S2048x1 .f32
  | 0, hn => (outA c (grid0.coords ⟨0, hn⟩) (ms0 ⟨0, hn⟩) (hs0 ⟨0, hn⟩) (ms1 ⟨0, hn⟩) (hs1 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩), soutA c (grid0.coords ⟨0, hn⟩) (ms0 ⟨0, hn⟩) (hs0 ⟨0, hn⟩) (ms1 ⟨0, hn⟩) (hs1 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩))
  | n + 1, hn =>
    if h0 : (n + 1) % 4 = 0 then
      if h1 : (n + 1) % 4 = 3 then
        False.elim (by omega)
      else
        (outA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondFirst ⟨n + 1, hn⟩).mpr h0) (fun h => h1 ((hcondLast ⟨n + 1, hn⟩).mp h)) (iblk V c 0 ⟨n + 1, hn⟩), soutA c (grid0.coords ⟨n + 1, hn⟩) (ms0 ⟨n + 1, hn⟩) (hs0 ⟨n + 1, hn⟩) (ms1 ⟨n + 1, hn⟩) (hs1 ⟨n + 1, hn⟩) scM (Memref.isWhole_whole _) ((hcondFirst ⟨n + 1, hn⟩).mpr h0) (fun h => h1 ((hcondLast ⟨n + 1, hn⟩).mp h)) (iblk V c 0 ⟨n + 1, hn⟩))
    else
      if h1 : (n + 1) % 4 = 3 then
        (outC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) ((hcondLast ⟨n + 1, hn⟩).mpr h1) (iblk V c 0 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) ((hcondLast ⟨n + 1, hn⟩).mpr h1) (iblk V c 0 ⟨n + 1, hn⟩) (outsAt c n (Nat.lt_of_succ_lt hn)).2)
      else
        (outB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (outsAt c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (outsAt c n (Nat.lt_of_succ_lt hn)).2)

theorem outsAt_A (c : Dev nD) (t : Fin cfg0.N) (h0 : t.val % 4 = 0) (h1 : ¬t.val % 4 = 3) :
    outsAt V c t.val t.isLt = (outA c (grid0.coords t) (ms0 t) (hs0 t) (ms1 t) (hs1 t) scM (Memref.isWhole_whole _) ((hcondFirst t).mpr h0) (fun h => h1 ((hcondLast t).mp h)) (iblk V c 0 t), soutA c (grid0.coords t) (ms0 t) (hs0 t) (ms1 t) (hs1 t) scM (Memref.isWhole_whole _) ((hcondFirst t).mpr h0) (fun h => h1 ((hcondLast t).mp h)) (iblk V c 0 t)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (outB c (grid0.coords t) (ms0 t) (hs0 t) (ms1 t) (hs1 t) scM (Memref.isWhole_whole _) (fun h => h0 ((hcondFirst t).mp h)) (fun h => h1 ((hcondLast t).mp h)) (iblk V c 0 t) (outsAt V c (t.val - 1) (Nat.lt_of_le_of_lt (Nat.sub_le _ _) t.isLt)).2, soutB c (grid0.coords t) (ms0 t) (hs0 t) (ms1 t) (hs1 t) scM (Memref.isWhole_whole _) (fun h => h0 ((hcondFirst t).mp h)) (fun h => h1 ((hcondLast t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (outC c (grid0.coords t) (ms0 t) (hs0 t) (ms1 t) (hs1 t) scM (Memref.isWhole_whole _) (fun h => h0 ((hcondFirst t).mp h)) ((hcondLast t).mpr h1) (iblk V c 0 t) (outsAt V c (t.val - 1) (Nat.lt_of_le_of_lt (Nat.sub_le _ _) t.isLt)).2, soutC c (grid0.coords t) (ms0 t) (hs0 t) (ms1 t) (hs1 t) scM (Memref.isWhole_whole _) (fun h => h0 ((hcondFirst t).mp h)) ((hcondLast t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The region's proof data -/

/-- The arrays as the region finds them; after the body at point `t` the input's buffer at its block and the output's
    at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem before_0 (c : Dev nD) (t : Fin cfg0.N) (d) : (dat V c).before 0 t d = iblk V c 0 t :=
  before_in_of V (dat V c) (A_eq V c 0) (after_0 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the closed forms say which case the point is in; the invariant hands the body the
    accumulator at what the point before left (at anything at the first point) and takes it back at this point's
    contents; the other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live_in t], after_0]
      rw [Dat.leavesExact_idle (dat V c) 1 t (idle_out_A t ((hcondFirst t).mpr h0) (fun h => h1 ((hcondLast t).mp h))) (noFlush_out_A t ((hcondFirst t).mpr h0) (fun h => h1 ((hcondLast t).mp h)))]
      rw [outsAt_A V c t h0 h1]
      unfold soutA; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩⟩
        iapply ((runA c (grid0.coords t) _ _ _ _ _ _ ((hcondFirst t).mpr h0) (fun h => h1 ((hcondLast t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((runA c (grid0.coords t) _ _ _ _ _ _ ((hcondFirst t).mpr h0) (fun h => h1 ((hcondLast t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _)
            iexact Hoth
          iexact Hg
        isplitl [Ho]; · iexact Ho
        isplitl [H0]; · iexact H0
        iexists _; iexact H1
  · by_cases h1 : t.val % 4 = 3
    · rw [show (dat V c).leavesExact 0 t = owns (c : Thread nD τ) (ms0 t) fullShare ((dat V c).after 0 t) from by
        unfold Dat.leavesExact; rw [live_in t], after_0]
      rw [show (dat V c).leavesExact 1 t = owns (c : Thread nD τ) (ms1 t) fullShare ((dat V c).after 1 t) from by
        unfold Dat.leavesExact; rw [live_out_C t (fun h => h0 ((hcondFirst t).mp h)) ((hcondLast t).mpr h1)], after_1]
      rw [outsAt_C V c t h0 h1]
      unfold outC soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runC c (grid0.coords t) _ _ _ _ _ _ (fun h => h0 ((hcondFirst t).mp h)) ((hcondLast t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (coverC c _ _ _ _ _ _ _ _ _ _ _)
    · rw [show (dat V c).leavesExact 0 t = owns (c : Thread nD τ) (ms0 t) fullShare ((dat V c).after 0 t) from by
        unfold Dat.leavesExact; rw [live_in t], after_0]
      rw [Dat.leavesExact_idle (dat V c) 1 t (idle_out_B t (fun h => h0 ((hcondFirst t).mp h)) (fun h => h1 ((hcondLast t).mp h))) (noFlush_out_B t (fun h => h0 ((hcondFirst t).mp h)) (fun h => h1 ((hcondLast t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((runB c (grid0.coords t) _ _ _ _ _ _ (fun h => h0 ((hcondFirst t).mp h)) (fun h => h1 ((hcondLast t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _)
            iexact Hoth
          iexact Hg
        isplitl [Ho]; · iexact Ho
        isplitl [H0]; · iexact H0
        iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, Hoth⟩, Hg⟩
  isplitl [HS0 Hoth]
  · isplitl [HS0]
    · iexists _; iexact HS0
    iexact Hoth
  iexact Hg

end Cert.KernelIdeal.RowSum

end
-- ==== Proof.FusedIdeal.lean ====
/-
  The fused region (the second pallas_call): an 8 × 8 grid. At a point (i, k) the body multiplies the 1024 × 1024 block
  (i, k) of the adjacency matrix with rows k·1024 … of the scaled features (resident whole) and adds the product to a
  1024 × 512 accumulator kept in scratch, which at k = 0 it first sets to rows i·1024 … of the scaled features (the
  self loop); at k = 7 it multiplies the accumulator with the weights (resident whole), scales row r by the block's
  degree factor and stores the product into the output block. Stated here, at any float instance and for any contents
  `V` of the TensorCore's buffers at the region's entry: the body's run in each of the three cases of (k = 0, k = 7),
  what the accumulator and the output block hold after each point (by recursion on the point), the region's proof data
  with the accumulator tracked in the invariant, and the body obligation at every point.
-/
import proofs.«112809_j50096498540571_2_alg».proof.Proof.Gen.KernelIdeal.Launch
import proofs.«112809_j50096498540571_2_alg».proof.Proof.Gen.KernelIdeal.Skeleton
import proofs.«112809_j50096498540571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `k = 0`: the accumulator is set to the self-loop rows. -/
abbrev condFirst (i : grid1.Coords) : Prop := k1_cond1 i = 1#1
theorem hcondFirst : ∀ t : Fin cfg1.N, condFirst (grid1.coords t) ↔ t.val % 8 = 0 :=
  (by decide +kernel : ∀ t : Fin grid1.N, condFirst (grid1.coords t) ↔ t.val % 8 = 0)
/-- `k = 7`: the output block is computed from the accumulator. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem idle_out_A : ∀ t : Fin cfg1.N, condFirst (grid1.coords t) → ¬condLast (grid1.coords t) → cfg1.idle 4 (grid1.coords t) = true := by decide +kernel
theorem noFlush_out_A : ∀ t : Fin cfg1.N, condFirst (grid1.coords t) → ¬condLast (grid1.coords t) → (cfg1.win 4).flush t = false := by decide +kernel
theorem idle_out_B : ∀ t : Fin cfg1.N, ¬condFirst (grid1.coords t) → ¬condLast (grid1.coords t) → cfg1.idle 4 (grid1.coords t) = true := by decide +kernel
theorem noFlush_out_B : ∀ t : Fin cfg1.N, ¬condFirst (grid1.coords t) → ¬condLast (grid1.coords t) → (cfg1.win 4).flush t = false := by decide +kernel
theorem live_out_C : ∀ t : Fin cfg1.N, ¬condFirst (grid1.coords t) → condLast (grid1.coords t) → cfg1.idle 4 (grid1.coords t) = false := by decide +kernel

/-! ## The memrefs the body is called with -/

abbrev VO : View sig .tc .vmem S1024x512 .f32 := (Memref.whole cc1_stg4_0 : Memref sig .tc .vmem S1024x512 .f32).view
abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x512 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .f32 := win1_4.stage (cfg1.slots t 4)
abbrev hs4 (t : Fin cfg1.N) : (ms4 t).IsWhole := hstage1_4 ((cfg1.slots t 4).cast nbuf1_4)
/-- The accumulator: the kernel's scratch operand, a whole scoped buffer. -/
abbrev scM : Memref sig .tc .vmem S1024x512 .f32 := Memref.whole cc1_scratch0
abbrev VS : View sig .tc .vmem S1024x512 .f32 := scM.view

/-- The core's other scoped buffers (the first region's staging buffers and scratch), each at some contents: they ride
    through this region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents. The accumulator is the last of the
    scoped buffers no window of this region stages, so the others come first. -/
theorem PhiA_split (c : Dev nD) :
    (Pipeline.ΦA spec1 c : sProp 𝕄) ⊣⊢ iprop(iprop((∃ d, owns (c : Thread nD τ) scM fullShare d) ∗ others c) ∗ (∃ r, prngReg c r)) := by
  unfold Pipeline.ΦA others; rw [scopedRest1_eq]; simp only [scM, owns_whole]
  constructor
  · iintro ⟨⟨Ha, Hb, Hc, Hd, He, Hs⟩, Hg⟩
    isplitr [Hg]
    · isplitl [Hs]; · iexact Hs
      isplitl [Ha]; · iexact Ha
      isplitl [Hb]; · iexact Hb
      isplitl [Hc]; · iexact Hc
      isplitl [Hd]; · iexact Hd
      iexact He
    iexact Hg
  · iintro ⟨⟨Hs, Ha, Hb, Hc, Hd, He⟩, Hg⟩
    isplitr [Hg]
    · isplitl [Ha]; · iexact Ha
      isplitl [Hb]; · iexact Hb
      isplitl [Hc]; · iexact Hc
      isplitl [Hd]; · iexact Hd
      isplitl [He]; · iexact He
      iexact Hs
    iexact Hg

/-! ## The body's run, case by case -/

set_option maxHeartbeats 2000000 in
/-- Case A (`k = 0`): the accumulator, at anything, is set to the self-loop rows and the block's product added; the
    output block is handed back untouched. -/
noncomputable def runA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i)
    (x0 : Vec F S1024x1024 .f32) (x1 : Vec F S8192x512 .bf16) (x2 : Vec F S512x512 .bf16) (x3 : Vec F S1024x1 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨[], ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- Case B (`0 < k < 7`): the block's product is added to the accumulator, which the point before left at `xs0`. -/
noncomputable def runB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i)
    (x0 : Vec F S1024x1024 .f32) (x1 : Vec F S8192x512 .bf16) (x2 : Vec F S512x512 .bf16) (x3 : Vec F S1024x1 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨[], ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 2000000 in
/-- Case C (`k = 7`): the block's product is added to the accumulator, and the accumulator times the weights, row-scaled
    by the degree factors, is stored into the output block. -/
noncomputable def runC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i)
    (x0 : Vec F S1024x1024 .f32) (x1 : Vec F S8192x512 .bf16) (x2 : Vec F S512x512 .bf16) (x3 : Vec F S1024x1 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves -/

/-- Cases A and B store nothing into the output block: a placeholder nothing consults (the window is idle there and
    not written back). -/
def outA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) : Vec F S1024x512 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) (y : S1024x512.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S1024x512.size (by sl_kernel_rfl) y
/-- What case A leaves in the accumulator. -/
def soutA (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) : Vec F S1024x512 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) : Vec F S1024x512 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S1024x512.size (by sl_kernel_rfl) y
/-- What case B leaves in the accumulator. -/
def soutB (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) : Vec F S1024x512 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S1024x512.size (by sl_kernel_rfl) y
/-- What case C leaves in the output block. -/
def outC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) : Vec F S1024x512 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) (y : S1024x512.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S1024x512.size (by sl_kernel_rfl) y
/-- What case C leaves in the accumulator. -/
def soutC (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) : Vec F S1024x512 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation, point by point -/

/-- What the output block and the accumulator hold after the body at position `n`: the case the closed forms select,
    run at the point's memrefs and input blocks, from what the accumulator held after position `n - 1`. -/
def outsAt (c : Dev nD) : (n : ℕ) → n < cfg1.N → Vec F S1024x512 .f32 × Vec F S1024x512 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      if h1 : (n + 1) % 8 = 7 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg1.N) (h0 : t.val % 8 = 0) (h1 : ¬t.val % 8 = 7) :
    outsAt V c t.val t.isLt = (outA c (grid1.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk V c 0 t) (iblk V c 1 t) (iblk V c 2 t) (iblk V c 3 t), soutA c (grid1.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = (outB c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = (outC c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The region's proof data -/

/-- The arrays as the region finds them; after the body at point `t` each input's buffer at its block and the
    output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the closed forms say which case the point is in; the invariant hands the body the
    accumulator at what the point before left (at anything at the first point) and takes it back at this point's
    contents; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [Dat.leavesExact_idle (dat V c) 4 t (idle_out_A t ((hcondFirst t).mpr h0) (fun h => h1 ((hcondLast t).mp h))) (noFlush_out_A t ((hcondFirst t).mpr h0) (fun h => h1 ((hcondLast t).mp h)))]
      rw [outsAt_A V c t h0 h1]
      unfold soutA; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA_split c).1 $$ HΦ
        icases HΦ' with ⟨⟨HS0, Hoth⟩, Hg⟩
        iapply ((runA c (grid1.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcondFirst t).mpr h0) (fun h => h1 ((hcondLast t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [show (dat V c).leavesExact 4 t = owns (c : Thread nD τ) (ms4 t) fullShare ((dat V c).after 4 t) from by
        unfold Dat.leavesExact; rw [live_out_C t (fun h => h0 ((hcondFirst t).mp h)) ((hcondLast t).mpr h1)], after_4]
      rw [outsAt_C V c t h0 h1]
      unfold outC soutC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runC c (grid1.coords t) _ _ _ _ _ _ _ _ _ _ _ _ (fun h => h0 ((hcondFirst t).mp h)) ((hcondLast t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c _ _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC c _ _ _ _ _ _ _ _ _ _ _ _ _ _ _ _ _ _ _ _ )
    ·
      rw [show (dat V c).leavesExact 0 t = owns (c : Thread nD τ) (ms0 t) fullShare ((dat V c).after 0 t) from by
        unfold Dat.leavesExact; rw [live_in0 t], after_0]
      rw [show (dat V c).leavesExact 1 t = owns (c : Thread nD τ) (ms1 t) fullShare ((dat V c).after 1 t) from by
        unfold Dat.leavesExact; rw [live_in1 t], after_1]
      rw [show (dat V c).leavesExact 2 t = owns (c : Thread nD τ) (ms2 t) fullShare ((dat V c).after 2 t) from by
        unfold Dat.leavesExact; rw [live_in2 t], after_2]
      rw [show (dat V c).leavesExact 3 t = owns (c : Thread nD τ) (ms3 t) fullShare ((dat V c).after 3 t) from by
        unfold Dat.leavesExact; rw [live_in3 t], after_3]
      rw [Dat.leavesExact_idle (dat V c) 4 t (idle_out_B t (fun h => h0 ((hcondFirst t).mp h)) (fun h => h1 ((hcondLast t).mp h))) (noFlush_out_B t (fun h => h0 ((hcondFirst t).mp h)) (fun h => h1 ((hcondLast t).mp h)))]
      rw [outsAt_B V c t h0 h1]
      unfold soutB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((runB c (grid1.coords t) _ _ _ _ _ _ _ _ _ _ _ _ (fun h => h0 ((hcondFirst t).mp h)) (fun h => h1 ((hcondLast t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c _ _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg1.N) ⊢ Pipeline.ΦA spec1 c := by
  have ht : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ ht]
  iintro ⟨⟨HS0, Hoth⟩, Hg⟩
  iapply (PhiA_split c).2
  isplitl [HS0 Hoth]
  · isplitl [HS0]
    · iexists _; iexact HS0
    iexact Hoth
  iexact Hg

end Cert.KernelIdeal.Fused

end
-- ==== Proof.RunIdeal.lean ====
/-
  The whole run of @main: the row-sum region, three stretches of host operations (the degree factor from the row
  sums; the select; the scaled, narrowed features and weights), the fused region. The contents of the TensorCore's
  unscoped buffers are folded through the five items — a region leaves its arrays at what its write-backs leave and every
  other buffer alone, a host stretch applies its operations — and every weakly fair execution terminates with every
  unscoped buffer at the last fold. From it: the three argument arrays end as launched (no item writes one), and the
  result array ends at what the fused region's write-backs leave. Stated at any float instance.
-/
import proofs.«112809_j50096498540571_2_alg».proof.Proof.Gen.KernelIdeal.Regions
import proofs.«112809_j50096498540571_2_alg».proof.Proof.RowSumIdeal
import proofs.«112809_j50096498540571_2_alg».proof.Proof.FusedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each item boundary -/

/-- Core `c`'s buffers at launch. -/
abbrev B0 (c : Dev nD) : Valuation τ sig (Elt F) := fun b => m (c, b)
/-- The same read at the TensorCore's references: what the row-sum region is entered with. -/
abbrev E0 : (c : Dev nD) → (b : Ref sig .tc) → Buf (Elt F) ((c : Thread nD τ).loc b) := fun c b => B0 m c b
/-- After the row-sum region: its arrays at what the pipeline leaves, every other buffer as entered. -/
def B1 (c : Dev nD) : Valuation τ sig (Elt F) :=
  Pipeline.withArrays spec0 c (B0 m c) fun w => (RowSum.dat (E0 m) c).arrAt w cfg0.N
theorem B1_arr (c : Dev nD) (w : Fin cfg0.W) :
    B1 m c (Proc.devRef .tc (Pipeline.arrRef spec0 w)) = (RowSum.dat (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (RowSum.dat (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After each of the three host stretches. -/
abbrev B2 : Dev nD → Valuation τ sig (Elt F) := fun c => StableHlo.after hostOps1 (B1 m c)
abbrev B3 : Dev nD → Valuation τ sig (Elt F) := fun c => StableHlo.after hostOps1_1 (B2 m c)
abbrev B4 : Dev nD → Valuation τ sig (Elt F) := fun c => StableHlo.after hostOps1_2 (B3 m c)
/-- What the fused region is entered with. -/
abbrev E4 : (c : Dev nD) → (b : Ref sig .tc) → Buf (Elt F) ((c : Thread nD τ).loc b) := fun c b => B4 m c b
/-- After the fused region. -/
def B5 (c : Dev nD) : Valuation τ sig (Elt F) :=
  Pipeline.withArrays spec1 c (B4 m c) fun w => (Fused.dat (E4 m) c).arrAt w cfg1.N
theorem B5_arr (c : Dev nD) (w : Fin cfg1.W) :
    B5 m c (Proc.devRef .tc (Pipeline.arrRef spec1 w)) = (Fused.dat (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev E5 : (c : Dev nD) → (b : Ref sig .tc) → Buf (Elt F) ((c : Thread nD τ).loc b) := fun c b => B5 m c b
theorem hF1 (c : Dev nD) (w : Fin cfg1.W) : (Fused.dat (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

/-! ## No item writes an argument -/

/-- `main_arg0` reaches the end as launched. -/
theorem B5_main_arg0 (c : Dev nD) : B5 m c (Proc.devRef .tc main_arg0) = m ((c : Thread nD τ).loc main_arg0) :=
  calc B5 m c (Proc.devRef .tc main_arg0)
    _ = B4 m c (Proc.devRef .tc main_arg0) := (B5_arr m c 0).trans (((Fused.dat (E4 m) c).arrAt_in 0 rfl _).trans (Fused.A_eq (E4 m) c 0))
    _ = B3 m c (Proc.devRef .tc main_arg0) := StableHlo.after_of_writes_sub hostOps1_2 _ hostOps1_2_writes (by decide)
    _ = B2 m c (Proc.devRef .tc main_arg0) := StableHlo.after_of_writes_sub hostOps1_1 _ hostOps1_1_writes (by decide)
    _ = B1 m c (Proc.devRef .tc main_arg0) := StableHlo.after_of_writes_sub hostOps1 _ hostOps1_writes (by decide)
    _ = B0 m c (Proc.devRef .tc main_arg0) := (B1_arr m c 0).trans (((RowSum.dat (E0 m) c).arrAt_in 0 rfl _).trans (RowSum.A_eq (E0 m) c 0))
    _ = m ((c : Thread nD τ).loc main_arg0) := rfl

/-- `main_arg1` reaches the end as launched. -/
theorem B5_main_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = B3 m c (Proc.devRef .tc main_arg1) := StableHlo.after_of_writes_sub hostOps1_2 _ hostOps1_2_writes (by decide)
    _ = B2 m c (Proc.devRef .tc main_arg1) := StableHlo.after_of_writes_sub hostOps1_1 _ hostOps1_1_writes (by decide)
    _ = B1 m c (Proc.devRef .tc main_arg1) := StableHlo.after_of_writes_sub hostOps1 _ hostOps1_writes (by decide)
    _ = B0 m c (Proc.devRef .tc main_arg1) := B1_of_ne m c main_arg1 (by decide)
    _ = m ((c : Thread nD τ).loc main_arg1) := rfl

/-- `main_arg2` reaches the end as launched. -/
theorem B5_main_arg2 (c : Dev nD) : B5 m c (Proc.devRef .tc main_arg2) = m ((c : Thread nD τ).loc main_arg2) :=
  calc B5 m c (Proc.devRef .tc main_arg2)
    _ = B4 m c (Proc.devRef .tc main_arg2) := B5_of_ne m c main_arg2 (by decide)
    _ = B3 m c (Proc.devRef .tc main_arg2) := StableHlo.after_of_writes_sub hostOps1_2 _ hostOps1_2_writes (by decide)
    _ = B2 m c (Proc.devRef .tc main_arg2) := StableHlo.after_of_writes_sub hostOps1_1 _ hostOps1_1_writes (by decide)
    _ = B1 m c (Proc.devRef .tc main_arg2) := StableHlo.after_of_writes_sub hostOps1 _ hostOps1_writes (by decide)
    _ = B0 m c (Proc.devRef .tc main_arg2) := B1_of_ne m c main_arg2 (by decide)
    _ = m ((c : Thread nD τ).loc main_arg2) := rfl

/-! ## The proof data family and the thread state -/

abbrev admT : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) admT p) c
  | ⟨0, _⟩ => fun c => RowSum.dat (E0 m) c
  | ⟨1, _⟩ => fun c => Fused.dat (E4 m) c
abbrev 𝒱n : Variants := Variants.none
abbrev Ln : GSem nD τ sig → Finset Unit := fun _ => ∅
abbrev lvn : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (B5 m c) ∗ ∃ r, prngReg c r)

/-! ## The regions as items -/

set_option backward.isDefEq.respectTransparency.types false in
/-- The regRowSum region over the thread state: entered with every unscoped buffer at `B0`, left with them at `B1`.
    Its arrays are split out of the unscoped buffers and put back at their exit contents; the generator register and
    the scoped buffers no window stages go into the invariant and come back; nothing is owed; the kernel has no
    semaphore of its own. -/
def regRowSum : Pipeline.RegionSeg (pcfgs (F := F)) admT (pdats m) () defs₀ 𝒱n Ln lvn 0 where
  win := launch0.win.to₀
  block_pos := launch0.block_pos
  stage_whole := launch0.stage_whole
  K := PEmpty
  osem k := k.elim
  ho := Pipeline.OwnSemFacts.none _
  hbody c := (RowSum.body_obligation (E0 m) c).loose
  hwaits := Pipeline.hwaits_of_owed_zero _ _ _ _ Ln lvn 0 fun _ _ => rfl
  pre c := iprop(StableHlo.held (c : Thread nD τ) (Pipeline.ucRefs τ sig) (B0 m c) ∗ Rst c)
  post c := iprop(StableHlo.held (c : Thread nD τ) (Pipeline.ucRefs τ sig) (B1 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := RowSum.hin (E0 m) c
    unfold Pipeline.ΦA at h0
    rw [show (pdats m 0 c).Φ 0 = (RowSum.dat (E0 m) c).Φ 0 from rfl]
    iintro ⟨Hp, -, Hr⟩
    iapply h0
    isplitl [Hr]; · iexact Hr
    iexact Hp
  hout c := by
    rw [Pipeline.ownSems0_none]
    have h1 := RowSum.hout (E0 m) c
    unfold Pipeline.ΦA at h1
    rw [show (pdats m 0 c).Φ (Fin.last _) = (RowSum.dat (E0 m) c).Φ (Fin.last cfg0.N) from rfl]
    iintro HΦ
    ihave H := h1 $$ HΦ
    icases H with ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The regFused region over the thread state: entered with every unscoped buffer at `B4`, left with them at `B5`.
    Its arrays are split out of the unscoped buffers and put back at their exit contents; the generator register and
    the scoped buffers no window stages go into the invariant and come back; nothing is owed; the kernel has no
    semaphore of its own. -/
def regFused : Pipeline.RegionSeg (pcfgs (F := F)) admT (pdats m) () defs₀ 𝒱n Ln lvn 1 where
  win := launch1.win.to₀
  block_pos := launch1.block_pos
  stage_whole := launch1.stage_whole
  K := PEmpty
  osem k := k.elim
  ho := Pipeline.OwnSemFacts.none _
  hbody c := (Fused.body_obligation (E4 m) c).loose
  hwaits := Pipeline.hwaits_of_owed_zero _ _ _ _ Ln lvn 1 fun _ _ => rfl
  pre c := iprop(StableHlo.held (c : Thread nD τ) (Pipeline.ucRefs τ sig) (B4 m c) ∗ Rst c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := Fused.hin (E4 m) c
    unfold Pipeline.ΦA at h0
    rw [show (pdats m 1 c).Φ 0 = (Fused.dat (E4 m) c).Φ 0 from rfl]
    iintro ⟨Hp, -, Hr⟩
    iapply h0
    isplitl [Hr]; · iexact Hr
    iexact Hp
  hout c := by
    rw [Pipeline.ownSems0_none]
    have h1 := Fused.hout (E4 m) c
    unfold Pipeline.ΦA at h1
    rw [show (pdats m 1 c).Φ (Fin.last _) = (Fused.dat (E4 m) c).Φ (Fin.last cfg1.N) from rfl]
    iintro HΦ
    ihave H := h1 $$ HΦ
    icases H with ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) admT (pdats m) () defs₀ 𝒱n Ln lvn) :=
  [ .region (regRowSum m),
    .host (hseg hostOps1 hostOps1_sub hostOps1_fresh (B1 m)),
    .host (hseg hostOps1_1 hostOps1_1_sub hostOps1_1_fresh (B2 m)),
    .host (hseg hostOps1_2 hostOps1_2_sub hostOps1_2_fresh (B3 m)),
    .region (regFused m) ]

set_option backward.isDefEq.respectTransparency.types false in
/-- THE RUN: from any memory with zero counters, every weakly fair execution of @main terminates, nothing faulting,
    and every final state has every unscoped buffer at the last fold `B5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admT (pdats m) () cellOf_inj emb₁ defs₀ 𝒱n Ln lvn m ρ main (items m)
    (fun c Q => by
      rewrite [main_chain c, Pipeline.Seg.run_eq_chain,
        show (items m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tlast m)
    (hch := ⟨fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c)⟩) (run_all m ρ)

/-- The run with the result array named: it ends at what the fused region's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v11) = (Fused.dat (E4 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v11 (by decide))).trans (B5_arr m c 4),
     (h c _ (mem_uc main_arg0 (by decide))).trans (B5_main_arg0 m c),
     (h c _ (mem_uc main_arg1 (by decide))).trans (B5_main_arg1 m c),
     (h c _ (mem_uc main_arg2 (by decide))).trans (B5_main_arg2 m c)⟩) (run_all m ρ)

end Cert.KernelIdeal.Run

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.RowSumValue.lean ====
/-
  What the row-sum region leaves in its result array, over the extended reals: entry (p, 0) is the sum of row p of the
  adjacency matrix.

  The accumulator after the first point of a block row is 0 + the lane sums of that point's block, after each later
  point what the point before left + that point's lane sums; so after the row's last point it is the sum, over the
  row's four blocks, of the block's lane sums, and a sum over four blocks of 2048 columns is the sum over the 8192
  columns. The last point of a block row stores the accumulator into the output block, which is written back there;
  the four output blocks tile the result array.
-/
import proofs.«112809_j50096498540571_2_alg».proof.Proof.RowSumIdeal
import proofs.«112809_j50096498540571_2_alg».proof.Proof.LibKeepdims
import proofs.«112809_j50096498540571_2_alg».proof.Proof.LibBlockFold
import proofs.«112809_j50096498540571_2_alg».proof.Proof.LibBlockSumN
import Idealize.ShloMosaic.Lib.Pipeline.Value
import Idealize.ShloMosaic.PureOps.Ideal.Laws
import Idealize.ShloMosaic.Lib.ValueIdx

set_option maxRecDepth 16384

noncomputable section

namespace Cert.KernelIdeal.RowSumValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.RowSum
open scoped BigOperators

/-! ## What each case's stores leave, as the body's arithmetic -/

section Pieces

variable {F : FTy → Type} [FloatOps F]

theorem hz : (![0, 0] : Fin 2 → Nat) = fun _ => 0 := funext fun a => by fin_cases a <;> rfl

/-- At the first point of a block row the accumulator ends at the block's lane sums added to the zero it was reset to. -/
theorem soutA_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : condFirst i) (hc1 : ¬condLast i) (x0 : Vec F S2048x2048 .f32) :
    soutA c i arg2 harg2 arg3 harg3 arg4 harg4 hc0 hc1 x0 = k0_pay2 (k0_pay1 (F := F)) x0 := by
  unfold soutA
  rw [View.read_writes_eq_canon _ _ _ (scoverA c i arg2 harg2 arg3 harg3 arg4 harg4 hc0 hc1 x0)]
  unfold runA
  dsimp only
  sl_unfold_run_names
  rw [View.canon_cons_unit_zero hz]
  simp only [View.readAt_eq_ld, harg2.read_unread, View.ld_unit_zero (S := S2048x2048) hz, View.ld_unit_zero (S := S2048x1) hz]
  exact congrArg (fun v => k0_pay2 v x0) (View.readCov_unit_zero (S := S2048x1) arg4.view hz _ _)

/-- At a later point the accumulator ends at the block's lane sums added to what it held. -/
theorem soutB_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : ¬condLast i) (x0 : Vec F S2048x2048 .f32) (xs0 : Vec F S2048x1 .f32) :
    soutB c i arg2 harg2 arg3 harg3 arg4 harg4 hc0 hc1 x0 xs0 = k0_pay2 xs0 x0 := by
  unfold soutB
  rw [View.read_writes_eq_canon _ _ _ (scoverB c i arg2 harg2 arg3 harg3 arg4 harg4 hc0 hc1 x0 xs0)]
  unfold runB
  dsimp only
  sl_unfold_run_names
  rw [View.canon_unit_zero hz]
  simp only [View.readAt_eq_ld, harg2.read_unread, harg4.read_unread, View.ld_unit_zero (S := S2048x2048) hz, View.ld_unit_zero (S := S2048x1) hz]

theorem soutC_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) :
    soutC c i arg2 harg2 arg3 harg3 arg4 harg4 hc0 hc1 x0 xs0 = k0_pay2 xs0 x0 := by
  unfold soutC
  rw [View.read_writes_eq_canon _ _ _ (scoverC c i arg2 harg2 arg3 harg3 arg4 harg4 hc0 hc1 x0 xs0)]
  unfold runC
  dsimp only
  sl_unfold_run_names
  rw [View.canon_unit_zero hz]
  simp only [View.readAt_eq_ld, harg2.read_unread, harg4.read_unread, View.ld_unit_zero (S := S2048x2048) hz, View.ld_unit_zero (S := S2048x1) hz]

/-- At the last point of a block row the output block is the accumulator, read back after its store. -/
theorem outC_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬condFirst i) (hc1 : condLast i) (x0 : Vec F S2048x2048 .f32) (xs0 : Vec F S2048x1 .f32) :
    outC c i arg2 harg2 arg3 harg3 arg4 harg4 hc0 hc1 x0 xs0 = k0_pay2 xs0 x0 := by
  unfold outC
  rw [View.read_writes_eq_canon _ _ _ (coverC c i arg2 harg2 arg3 harg3 arg4 harg4 hc0 hc1 x0 xs0)]
  unfold runC
  dsimp only
  sl_unfold_run_names
  rw [View.canon_unit_zero hz]
  simp only [View.readAt_eq_ld, harg2.read_unread, harg4.read_unread, View.ld_unit_zero (S := S2048x2048) hz, View.ld_unit_zero (S := S2048x1) hz]
  exact View.readCov_unit_zero (S := S2048x1) arg4.view hz _ _

variable (V : (c : Dev nD) → (b : Ref sig .tc) → Buf (Elt F) ((c : Thread nD τ).loc b))

set_option maxHeartbeats 2000000 in
theorem acc_first (c : Dev nD) (t : Fin cfg0.N) (h0 : t.val % 4 = 0) :
    (outsAt V c t.val t.isLt).2 = k0_pay2 (k0_pay1 (F := F)) (iblk V c 0 t) :=
  (congrArg Prod.snd (outsAt_A V c t h0 (by omega))).trans
    (soutA_eq (F := F) c (grid0.coords t) (ms0 t) (hs0 t) (ms1 t) (hs1 t) scM (Memref.isWhole_whole _) ((hcondFirst t).mpr h0) (fun h => (by omega : ¬t.val % 4 = 3) ((hcondLast t).mp h)) (iblk V c 0 t))

set_option maxHeartbeats 2000000 in
theorem acc_step (c : Dev nD) (t : Fin cfg0.N) (h0 : ¬t.val % 4 = 0) :
    (outsAt V c t.val t.isLt).2 = k0_pay2 (outsAt V c (t.val - 1) (Nat.lt_of_le_of_lt (Nat.sub_le _ _) t.isLt)).2 (iblk V c 0 t) := by
  by_cases h1 : t.val % 4 = 3
  · exact (congrArg Prod.snd (outsAt_C V c t h0 h1)).trans
      (soutC_eq (F := F) c (grid0.coords t) (ms0 t) (hs0 t) (ms1 t) (hs1 t) scM (Memref.isWhole_whole _) (fun h => h0 ((hcondFirst t).mp h)) ((hcondLast t).mpr h1) (iblk V c 0 t) _)
  · exact (congrArg Prod.snd (outsAt_B V c t h0 h1)).trans
      (soutB_eq (F := F) c (grid0.coords t) (ms0 t) (hs0 t) (ms1 t) (hs1 t) scM (Memref.isWhole_whole _) (fun h => h0 ((hcondFirst t).mp h)) (fun h => h1 ((hcondLast t).mp h)) (iblk V c 0 t) _)

set_option maxHeartbeats 2000000 in
theorem out_last (c : Dev nD) (t : Fin cfg0.N) (h1 : t.val % 4 = 3) :
    (outsAt V c t.val t.isLt).1 = (outsAt V c t.val t.isLt).2 := by
  have h0 : ¬t.val % 4 = 0 := by omega
  exact ((congrArg Prod.fst (outsAt_C V c t h0 h1)).trans
      (outC_eq (F := F) c (grid0.coords t) (ms0 t) (hs0 t) (ms1 t) (hs1 t) scM (Memref.isWhole_whole _) (fun h => h0 ((hcondFirst t).mp h)) ((hcondLast t).mpr h1) (iblk V c 0 t) _)).trans
    ((congrArg Prod.snd (outsAt_C V c t h0 h1)).trans
      (soutC_eq (F := F) c (grid0.coords t) (ms0 t) (hs0 t) (ms1 t) (hs1 t) scM (Memref.isWhole_whole _) (fun h => h0 ((hcondFirst t).mp h)) ((hcondLast t).mpr h1) (iblk V c 0 t) _)).symm

end Pieces

/-! ## Over the extended reals -/

variable (V : (c : Dev nD) → (b : Ref sig .tc) → Buf (Elt Ideal) ((c : Thread nD τ).loc b))

theorem pay1_apply (j : S2048x1.Idx) : k0_pay1 (F := Ideal) j = 0 := by
  unfold k0_pay1
  rw [shapeCast_self]
  exact Ideal.ofBits_zero_f32

/-- The accumulator's update at row `r`: what it held plus the sum of row `r` of the block. -/
theorem pay2_apply (v3 : Vec Ideal S2048x1 .f32) (v4 : Vec Ideal S2048x2048 .f32) (r : Fin 2048) (u : Fin 1) :
    k0_pay2 v3 v4 (ix2 r u) = v3 (ix2 r u) + ∑ k : Fin 2048, v4 (ix2 r k) := by
  unfold k0_pay2
  rw [shapeCast_self, addf_apply, Cert.LibKeepdims.shapeCast_a_a1_apply]
  exact congrArg (v3 (ix2 r u) + ·) (Cert.LibKeepdims.multiReduction_add_row (a := 2048) (b := 2048) v4 _ _ _ _ r)

/-- The adjacency matrix as the region finds it, as a function on matrix indices. -/
abbrev adjOf (c : Dev nD) : S8192x8192.Idx → EReal := V c main_arg0

/-- The printed index maps over the grid: the input block of point `t` is block (t / 4, t % 4), the output block
    (t / 4, 0). -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- An entry of the input block of a point is an entry of the adjacency matrix. -/
theorem iblk_apply (c : Dev nD) (t : Fin cfg0.N) (bi bk : ℕ) (hbi : t.val / 4 = bi) (hbk : t.val % 4 = bk) (r k : Fin 2048)
    (hr : 2048 * bi + r.val < 8192) (hk : bk * 2048 + k.val < 8192) :
    iblk V c 0 t (ix2 r k) = adjOf V c (ix2 ⟨2048 * bi + r.val, hr⟩ ⟨bk * 2048 + k.val, hk⟩) := by
  obtain ⟨e0, e1, -, -⟩ := idx_facts t
  show adjOf V c (((cfg0.win 0).blk t).view.emb (ix2 r k)) = _
  refine congrArg (adjOf V c) (funext fun a => Fin.ext ?_)
  match a with
  | ⟨0, _⟩ => show win0_0.index t (0 : Fin 2) * 2048 + 1 * r.val = 2048 * bi + r.val; omega
  | ⟨1, _⟩ => show win0_0.index t (1 : Fin 2) * 2048 + 1 * k.val = bk * 2048 + k.val; omega

/-- The accumulator at row `r` after position `n`, and what position `n` adds to it, as functions of the position. -/
def accN (c : Dev nD) (r : Fin 2048) (u : Fin 1) (n : ℕ) : EReal :=
  if h : n < cfg0.N then (outsAt V c n h).2 (ix2 r u) else 0
def partN (c : Dev nD) (r : Fin 2048) (n : ℕ) : EReal :=
  if h : n < cfg0.N then ∑ k : Fin 2048, (iblk V c 0 ⟨n, h⟩ : S2048x2048.Idx → EReal) (ix2 r k) else 0

/-- After the last point of a block row the accumulator at row `r` is the whole row's sum. -/
theorem acc_row (c : Dev nD) (t : Fin cfg0.N) (h3 : t.val % 4 = 3) (r : Fin 2048) (u : Fin 1) (hR : 2048 * (t.val / 4) + r.val < 8192) :
    (outsAt V c t.val t.isLt).2 (ix2 r u) = ∑ q : Fin 8192, adjOf V c (ix2 ⟨2048 * (t.val / 4) + r.val, hR⟩ q) := by
  have hN : cfg0.N = 16 := N_0
  have ht := t.isLt
  have h0 : accN V c r u (t.val - 3) = 0 + partN V c r (t.val - 3) := by
    have hl : t.val - 3 < cfg0.N := by omega
    unfold accN partN
    rw [dif_pos hl, dif_pos hl]
    rw [show (outsAt V c (t.val - 3) hl).2 = _ from acc_first V c ⟨t.val - 3, hl⟩ (by show (t.val - 3) % 4 = 0; omega), pay2_apply, pay1_apply]
  have hs : ∀ s, s + 1 < 4 → accN V c r u (t.val - 3 + (s + 1)) = accN V c r u (t.val - 3 + s) + partN V c r (t.val - 3 + (s + 1)) := by
    intro s hs4
    have hl : t.val - 3 + (s + 1) < cfg0.N := by omega
    have hl' : t.val - 3 + s < cfg0.N := by omega
    unfold accN partN
    rw [dif_pos hl, dif_pos hl', dif_pos hl]
    rw [show (outsAt V c (t.val - 3 + (s + 1)) hl).2 = _ from acc_step V c ⟨t.val - 3 + (s + 1), hl⟩ (by show ¬(t.val - 3 + (s + 1)) % 4 = 0; omega), pay2_apply]
    rfl
  have hfold := Cert.BlockFold.fold_blocks 4 (accN V c r u) (partN V c r) (t.val - 3) h0 hs 3 (by norm_num)
  have hb : t.val - 3 + 3 = t.val := by omega
  rw [hb] at hfold
  have hacc : accN V c r u t.val = (outsAt V c t.val t.isLt).2 (ix2 r u) := dif_pos t.isLt
  rw [← hacc, hfold, Finset.sum_range, Cert.BlockSumN.sum_blocks_of_eq 4 2048 (by norm_num) (fun q => adjOf V c (ix2 ⟨2048 * (t.val / 4) + r.val, hR⟩ q))]
  refine Finset.sum_congr rfl fun s _ => ?_
  have hsl : t.val - 3 + s.val < cfg0.N := by have := s.isLt; omega
  unfold partN
  rw [dif_pos hsl]
  refine Finset.sum_congr rfl fun k _ => ?_
  exact iblk_apply V c ⟨t.val - 3 + s.val, hsl⟩ (t.val / 4) s.val (by show (t.val - 3 + s.val) / 4 = t.val / 4; have := s.isLt; omega)
    (by show (t.val - 3 + s.val) % 4 = s.val; have := s.isLt; omega) r k hR _

/-- The sum of each row of an [8192, 8192] matrix, as an [8192, 1] column. -/
def rowSum (A : S8192x8192.Idx → EReal) : S8192x1.Idx → EReal := fun j => ∑ q : Fin 8192, A (ix2 (j 0) q)

/-- What the last point of a block row writes back is its block of the row sums. -/
theorem flushed_eq (c : Dev nD) (t : Fin cfg0.N) (hf : (cfg0.win 1).flush t = true) :
    (dat V c).flushed 1 t = ((cfg0.win 1).blk t).view.read (Elt Ideal) (rowSum (adjOf V c)) := by
  have h3 : t.val % 4 = 3 := (flush0_1 t).mp hf
  have hN : cfg0.N = 16 := N_0
  have ht := t.isLt
  obtain ⟨-, -, e2, e3⟩ := idx_facts t
  show (cfg0.win 1).cut (grid0.coords t) ((dat V c).after 1 t) = _
  rw [after_1, out_last V c t h3]
  funext j
  obtain ⟨r, u, rfl⟩ : ∃ (r : Fin 2048) (u : Fin 1), j = ix2 r u := ⟨j 0, j 1, eq_ix2 j⟩
  have hR : 2048 * (t.val / 4) + r.val < 8192 := by have := r.isLt; omega
  show (outsAt V c t.val t.isLt).2 (ix2 r u) = rowSum (adjOf V c) (((cfg0.win 1).blk t).view.emb (ix2 r u))
  rw [acc_row V c t h3 r u hR]
  unfold rowSum
  refine Finset.sum_congr rfl fun q _ => congrArg (adjOf V c) ?_
  refine congrArg (fun a => ix2 a q) (Fin.ext ?_)
  show 2048 * (t.val / 4) + r.val = win0_1.index t (0 : Fin 2) * 2048 + 1 * r.val
  omega

theorem mem_blk (t : Fin cfg0.N) (i : S8192x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- The four written-back blocks tile the result array. -/
theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  have hlt : 4 * ((i 0).val / 2048) + 3 < cfg0.N := by omega
  obtain ⟨-, -, e2, e3⟩ := idx_facts ⟨4 * ((i 0).val / 2048) + 3, hlt⟩
  refine ⟨⟨4 * ((i 0).val / 2048) + 3, hlt⟩, (flush0_1 _).mpr (by show (4 * ((i 0).val / 2048) + 3) % 4 = 3; omega), ?_⟩
  rw [mem_blk]
  intro a
  match a with
  | ⟨0, _⟩ =>
    show win0_1.index ⟨4 * ((i 0).val / 2048) + 3, hlt⟩ (0 : Fin 2) * 2048 ≤ (i 0).val ∧ (i 0).val < win0_1.index ⟨4 * ((i 0).val / 2048) + 3, hlt⟩ (0 : Fin 2) * 2048 + 2048
    have e2' : win0_1.index ⟨4 * ((i 0).val / 2048) + 3, hlt⟩ (0 : Fin 2) = (4 * ((i 0).val / 2048) + 3) / 4 := e2
    omega
  | ⟨1, _⟩ =>
    show win0_1.index ⟨4 * ((i 0).val / 2048) + 3, hlt⟩ (1 : Fin 2) * 1 ≤ (i 1).val ∧ (i 1).val < win0_1.index ⟨4 * ((i 0).val / 2048) + 3, hlt⟩ (1 : Fin 2) * 1 + 1
    omega

/-- THE RESULT ARRAY of the row-sum region: the row sums of the adjacency matrix as the region found it. -/
theorem final (c : Dev nD) : (dat V c).arrAt 1 cfg0.N = rowSum (adjOf V c) :=
  (dat V c).arrAt_eq_of_cover 1 (rowSum (adjOf V c)) (fun t hf => flushed_eq V c t hf) cover

end Cert.KernelIdeal.RowSumValue

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«112809_j50096498540571_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibSeedFold.lean ====
/-
  An accumulator carried over the steps of one block row, started from a seed.

  Let `acc m` be what an accumulator holds after step `m`, and `part m` what step `m` adds. If the first step of a
  row (`m = base`) leaves `seed + part base` and every later step `base + (s + 1)` of the row leaves what the step
  before left plus its own part, then after step `base + s` the accumulator is the seed plus the sum of the parts of
  the steps `base … base + s`. Induction on `s`; holds in any additive commutative monoid, so for extended reals with
  no finiteness.
-/
import Idealize.ShloMosaic.Lib.ValueIdx

namespace Cert.SeedFold

open scoped BigOperators

/-- After step `base + s` of a row whose first step leaves `seed + part base` and whose later steps each add their part,
    the accumulator holds the seed plus the parts of the steps `base … base + s`. -/
theorem fold_seed {α : Type} [AddCommMonoid α] (n : Nat) (acc part : Nat → α) (seed : α) (base : Nat)
    (h0 : acc base = seed + part base)
    (hs : ∀ s, s + 1 < n → acc (base + (s + 1)) = acc (base + s) + part (base + (s + 1))) :
    ∀ s, s < n → acc (base + s) = seed + ∑ s' ∈ Finset.range (s + 1), part (base + s') := by
  intro s
  induction s with
  | zero =>
    intro _
    rw [Nat.add_zero, h0, Finset.sum_range_one, Nat.add_zero]
  | succ s ih =>
    intro h
    rw [hs s h, ih (Nat.lt_of_succ_lt h), Finset.sum_range_succ (fun s' => part (base + s')) (s + 1), add_assoc]

end Cert.SeedFold
-- ==== Proof.FusedValue.lean ====
/-
  What the fused region leaves in its result array, over the extended reals. Write a for the adjacency matrix, f for
  the scaled features, w for the weights and d for the column of degree factors, as the region finds them. Entry (p, o)
  of the result is
      (∑ c, (f p c + ∑ q, a p q · f q c) · w c o) · d p 0.

  The accumulator after the first point of a block row is the self-loop rows of f plus the product of that point's
  block of a with its rows of f; after each later point, what the point before left plus that point's product; so after
  the row's last point it is the self-loop rows plus the sum over the row's eight blocks, and a sum over eight blocks of
  1024 columns is the sum over the 8192 columns. The last point of a block row multiplies the accumulator with the
  weights, scales row r by its degree factor and stores the product into the output block, which is written back
  there; the eight output blocks tile the result array.
-/
import proofs.«112809_j50096498540571_2_alg».proof.Proof.FusedIdeal
import proofs.«112809_j50096498540571_2_alg».proof.Proof.LibKeepdims
import proofs.«112809_j50096498540571_2_alg».proof.Proof.LibDotApply
import proofs.«112809_j50096498540571_2_alg».proof.Proof.LibSeedFold
import proofs.«112809_j50096498540571_2_alg».proof.Proof.LibBlockSumN
import Idealize.ShloMosaic.Lib.Pipeline.Value
import Idealize.ShloMosaic.PureOps.Ideal.Laws
import Idealize.ShloMosaic.Lib.ValueIdx

set_option maxRecDepth 16384

noncomputable section

namespace Cert.KernelIdeal.FusedValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Fused
open scoped BigOperators

/-! ## What each case's stores leave, as the body's arithmetic -/

section Pieces

variable {F : FTy → Type} [FloatOps F]

theorem hz : (![0, 0] : Fin 2 → Nat) = fun _ => 0 := funext fun a => by fin_cases a <;> rfl

/-- The rows of the resident features the body multiplies its adjacency block with: rows k·1024 … at point (i, k). -/
abbrev ldK (i : grid1.Coords) (x1 : Vec F S8192x512 .bf16) : Vec F S1024x512 .bf16 :=
  View.ld x1 (Rect.unit (s := S8192x512) (k1_off2 i) S1024x512.size (k1_off2_inb i))
/-- The self-loop rows: rows i·1024 … at a point (i, 0). -/
abbrev ldI (i : grid1.Coords) (hc0 : condFirst i) (x1 : Vec F S8192x512 .bf16) : Vec F S1024x512 .bf16 :=
  View.ld x1 (Rect.unit (s := S8192x512) (k1_off1 i) S1024x512.size (k1_off1_inb i hc0))

theorem soutA_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : condFirst i) (hc1 : ¬condLast i) (x0 : Vec F S1024x1024 .f32) (x1 : Vec F S8192x512 .bf16) (x2 : Vec F S512x512 .bf16) (x3 : Vec F S1024x1 .f32) :
    soutA c i arg2 harg2 arg3 harg3 arg4 harg4 arg5 harg5 arg6 harg6 arg7 harg7 hc0 hc1 x0 x1 x2 x3 = k1_pay2 x0 (ldK i x1) (k1_pay1 (ldI i hc0 x1)) := by
  unfold soutA
  rw [View.read_writes_eq_canon _ _ _ (scoverA c i arg2 harg2 arg3 harg3 arg4 harg4 arg5 harg5 arg6 harg6 arg7 harg7 hc0 hc1 x0 x1 x2 x3)]
  unfold runA
  dsimp only
  sl_unfold_run_names
  rw [View.canon_cons_unit_zero hz]
  simp only [View.readAt_eq_ld, harg2.read_unread, harg3.read_unread, View.ld_unit_zero (S := S1024x1024) hz]
  exact congrArg (fun v => k1_pay2 x0 (ldK i x1) v) (View.readCov_unit_zero (S := S1024x512) arg7.view hz _ _)

theorem soutB_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : ¬condLast i) (x0 : Vec F S1024x1024 .f32) (x1 : Vec F S8192x512 .bf16) (x2 : Vec F S512x512 .bf16) (x3 : Vec F S1024x1 .f32) (xs0 : Vec F S1024x512 .f32) :
    soutB c i arg2 harg2 arg3 harg3 arg4 harg4 arg5 harg5 arg6 harg6 arg7 harg7 hc0 hc1 x0 x1 x2 x3 xs0 = k1_pay2 x0 (ldK i x1) xs0 := by
  unfold soutB
  rw [View.read_writes_eq_canon _ _ _ (scoverB c i arg2 harg2 arg3 harg3 arg4 harg4 arg5 harg5 arg6 harg6 arg7 harg7 hc0 hc1 x0 x1 x2 x3 xs0)]
  unfold runB
  dsimp only
  sl_unfold_run_names
  rw [View.canon_unit_zero hz]
  simp only [View.readAt_eq_ld, harg2.read_unread, harg3.read_unread, harg7.read_unread, View.ld_unit_zero (S := S1024x1024) hz, View.ld_unit_zero (S := S1024x512) hz]

theorem soutC_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) :
    soutC c i arg2 harg2 arg3 harg3 arg4 harg4 arg5 harg5 arg6 harg6 arg7 harg7 hc0 hc1 x0 x1 x2 x3 xs0 = k1_pay2 x0 (ldK i x1) xs0 := by
  unfold soutC
  rw [View.read_writes_eq_canon _ _ _ (scoverC c i arg2 harg2 arg3 harg3 arg4 harg4 arg5 harg5 arg6 harg6 arg7 harg7 hc0 hc1 x0 x1 x2 x3 xs0)]
  unfold runC
  dsimp only
  sl_unfold_run_names
  rw [View.canon_unit_zero hz]
  simp only [View.readAt_eq_ld, harg2.read_unread, harg3.read_unread, harg7.read_unread, View.ld_unit_zero (S := S1024x1024) hz, View.ld_unit_zero (S := S1024x512) hz]

theorem outC_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hc0 : ¬condFirst i) (hc1 : condLast i) (x0 : Vec F S1024x1024 .f32) (x1 : Vec F S8192x512 .bf16) (x2 : Vec F S512x512 .bf16) (x3 : Vec F S1024x1 .f32) (xs0 : Vec F S1024x512 .f32) :
    outC c i arg2 harg2 arg3 harg3 arg4 harg4 arg5 harg5 arg6 harg6 arg7 harg7 hc0 hc1 x0 x1 x2 x3 xs0 = k1_pay3 (k1_pay2 x0 (ldK i x1) xs0) x2 x3 := by
  unfold outC
  rw [View.read_writes_eq_canon _ _ _ (coverC c i arg2 harg2 arg3 harg3 arg4 harg4 arg5 harg5 arg6 harg6 arg7 harg7 hc0 hc1 x0 x1 x2 x3 xs0)]
  unfold runC
  dsimp only
  sl_unfold_run_names
  rw [View.canon_unit_zero hz]
  simp only [View.readAt_eq_ld, harg2.read_unread, harg3.read_unread, harg4.read_unread, harg5.read_unread, harg7.read_unread, View.ld_unit_zero (S := S1024x1024) hz, View.ld_unit_zero (S := S1024x512) hz, View.ld_unit_zero (S := S512x512) hz, View.ld_unit_zero (S := S1024x1) hz]
  exact congrArg (fun v => k1_pay3 v x2 x3) (View.readCov_unit_zero (S := S1024x512) arg7.view hz _ _)

variable (V : (c : Dev nD) → (b : Ref sig .tc) → Buf (Elt F) ((c : Thread nD τ).loc b))

set_option maxHeartbeats 2000000 in
theorem acc_first (c : Dev nD) (t : Fin cfg1.N) (h0 : t.val % 8 = 0) :
    (outsAt V c t.val t.isLt).2 = k1_pay2 (iblk V c 0 t) (ldK (grid1.coords t) (iblk V c 1 t)) (k1_pay1 (ldI (grid1.coords t) ((hcondFirst t).mpr h0) (iblk V c 1 t))) :=
  (congrArg Prod.snd (outsAt_A V c t h0 (by omega))).trans
    (soutA_eq (F := F) c (grid1.coords t) (ms0 t) (hs0 t) (ms1 t) (hs1 t) (ms2 t) (hs2 t) (ms3 t) (hs3 t) (ms4 t) (hs4 t) scM (Memref.isWhole_whole _) ((hcondFirst t).mpr h0) (fun h => (by omega : ¬t.val % 8 = 7) ((hcondLast t).mp h)) (iblk V c 0 t) (iblk V c 1 t) (iblk V c 2 t) (iblk V c 3 t))

set_option maxHeartbeats 2000000 in
theorem acc_step (c : Dev nD) (t : Fin cfg1.N) (h0 : ¬t.val % 8 = 0) :
    (outsAt V c t.val t.isLt).2 = k1_pay2 (iblk V c 0 t) (ldK (grid1.coords t) (iblk V c 1 t)) (outsAt V c (t.val - 1) (Nat.lt_of_le_of_lt (Nat.sub_le _ _) t.isLt)).2 := by
  by_cases h1 : t.val % 8 = 7
  · exact (congrArg Prod.snd (outsAt_C V c t h0 h1)).trans
      (soutC_eq (F := F) c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) _)
  · exact (congrArg Prod.snd (outsAt_B V c t h0 h1)).trans
      (soutB_eq (F := F) c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) _)

set_option maxHeartbeats 2000000 in
theorem out_last (c : Dev nD) (t : Fin cfg1.N) (h1 : t.val % 8 = 7) :
    (outsAt V c t.val t.isLt).1 = k1_pay3 (outsAt V c t.val t.isLt).2 (iblk V c 2 t) (iblk V c 3 t) := by
  have h0 : ¬t.val % 8 = 0 := by omega
  exact ((congrArg Prod.fst (outsAt_C V c t h0 h1)).trans
      (outC_eq (F := F) c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) _)).trans
    (congrArg (fun v => k1_pay3 v (iblk V c 2 t) (iblk V c 3 t)) ((congrArg Prod.snd (outsAt_C V c t h0 h1)).trans
      (soutC_eq (F := F) c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) _)).symm)

end Pieces

/-! ## Over the extended reals -/

variable (V : (c : Dev nD) → (b : Ref sig .tc) → Buf (Elt Ideal) ((c : Thread nD τ).loc b))

theorem pay1_apply (v22 : Vec Ideal S1024x512 .bf16) (j : S1024x512.Idx) : k1_pay1 v22 j = v22 j := by
  unfold k1_pay1
  rw [shapeCast_self]
  show shapeCast S1024x512 v22 _ j = v22 j
  rw [shapeCast_self]

/-- The accumulator's update at (r, cc): what it held plus row r of the block times column cc of the feature rows. -/
theorem pay2_apply (v5 : Vec Ideal S1024x1024 .f32) (v8 : Vec Ideal S1024x512 .bf16) (v10 : Vec Ideal S1024x512 .f32) (r : Fin 1024) (cc : Fin 512) :
    k1_pay2 v5 v8 v10 (ix2 r cc) = v10 (ix2 r cc) + ∑ k : Fin 1024, v5 (ix2 r k) * v8 (ix2 k cc) := by
  unfold k1_pay2
  rw [shapeCast_self, addf_apply, shapeCast_self]
  exact congrArg (v10 (ix2 r cc) + ·) (Cert.LibDotApply.matmul_zero_apply (n := 1024) (K := 1024) (M := 512)
    dot_S1024x1024_S1024x512_S1024x512_1_0_0_1_n_n ⟨rfl, rfl, rfl, rfl, rfl, rfl⟩ none (truncf .bf16 v5 bitsLt_bf16_f32) v8 r cc)

/-- The output block at (r, o): row r of the accumulator times column o of the weights, scaled by row r's factor. -/
theorem pay3_apply (v19 : Vec Ideal S1024x512 .f32) (v21 : Vec Ideal S512x512 .bf16) (v24 : Vec Ideal S1024x1 .f32) (r : Fin 1024) (o : Fin 512) :
    k1_pay3 v19 v21 v24 (ix2 r o) = (∑ cc : Fin 512, v19 (ix2 r cc) * v21 (ix2 cc o)) * v24 (ix2 r (0 : Fin 1)) := by
  unfold k1_pay3
  rw [mulf_apply, Cert.LibKeepdims.broadcastTo_a1_ab_apply, shapeCast_self, shapeCast_self]
  exact congrArg (· * v24 (ix2 r (0 : Fin 1))) (Cert.LibDotApply.matmul_zero_apply (n := 1024) (K := 512) (M := 512)
    dot_S1024x512_S512x512_S1024x512_1_0_0_1_n_n ⟨rfl, rfl, rfl, rfl, rfl, rfl⟩ none (truncf .bf16 v19 bitsLt_bf16_f32) v21 r o)

/-- The arrays as the region finds them, as functions on matrix indices. -/
abbrev adjOf (c : Dev nD) : S8192x8192.Idx → EReal := V c main_arg0
abbrev fsOf (c : Dev nD) : S8192x512.Idx → EReal := V c main_v9
abbrev wOf (c : Dev nD) : S512x512.Idx → EReal := V c main_v10
abbrev dOf (c : Dev nD) : S8192x1.Idx → EReal := V c main_v6

/-- The printed index maps and grid coordinates over the grid: point t is (t / 8, t % 8); the adjacency block is
    (t / 8, t % 8), the degree-factor and output blocks (t / 8, 0), the two resident arrays whole. -/
theorem idx_facts : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ (grid1.coords t 0).val = t.val / 8 ∧ (grid1.coords t 1).val = t.val % 8 :=
  (by decide +kernel : ∀ t : Fin grid1.N, _)

theorem off2_0 (t : Fin cfg1.N) : k1_off2 (grid1.coords t) 0 = 1024 * (t.val % 8) := by
  rw [k1_off2_eq, ← (idx_facts t).2.2.2.2.2.2.2.2.2.2.2]; rfl
theorem off2_1 (t : Fin cfg1.N) : k1_off2 (grid1.coords t) 1 = 0 := by rw [k1_off2_eq]; rfl
theorem off1_0 (t : Fin cfg1.N) : k1_off1 (grid1.coords t) 0 = 1024 * (t.val / 8) := by
  rw [k1_off1_eq, ← (idx_facts t).2.2.2.2.2.2.2.2.2.2.1]; rfl
theorem off1_1 (t : Fin cfg1.N) : k1_off1 (grid1.coords t) 1 = 0 := by rw [k1_off1_eq]; rfl

/-- An entry of the adjacency block of a point is an entry of the adjacency matrix. -/
theorem iblk0_apply (c : Dev nD) (t : Fin cfg1.N) (bi bk : ℕ) (hbi : t.val / 8 = bi) (hbk : t.val % 8 = bk) (r k : Fin 1024)
    (hr : 1024 * bi + r.val < 8192) (hk : bk * 1024 + k.val < 8192) :
    (iblk V c 0 t : S1024x1024.Idx → EReal) (ix2 r k) = adjOf V c (ix2 ⟨1024 * bi + r.val, hr⟩ ⟨bk * 1024 + k.val, hk⟩) := by
  obtain ⟨e0, e1, -⟩ := idx_facts t
  show adjOf V c (((cfg1.win 0).blk t).view.emb (ix2 r k)) = _
  refine congrArg (adjOf V c) (funext fun a => Fin.ext ?_)
  match a with
  | ⟨0, _⟩ => show win1_0.index t (0 : Fin 2) * 1024 + 1 * r.val = 1024 * bi + r.val; omega
  | ⟨1, _⟩ => show win1_0.index t (1 : Fin 2) * 1024 + 1 * k.val = bk * 1024 + k.val; omega

/-- The rows of the resident features a point multiplies with are rows (t % 8)·1024 … of the scaled features. -/
theorem ldK_apply (c : Dev nD) (t : Fin cfg1.N) (bk : ℕ) (hbk : t.val % 8 = bk) (k : Fin 1024) (cc : Fin 512) (hk : bk * 1024 + k.val < 8192) :
    (ldK (grid1.coords t) (iblk V c 1 t) : S1024x512.Idx → EReal) (ix2 k cc) = fsOf V c (ix2 ⟨bk * 1024 + k.val, hk⟩ cc) := by
  obtain ⟨-, -, e2, e3, -⟩ := idx_facts t
  have o0 := off2_0 t
  have o1 := off2_1 t
  show fsOf V c (((cfg1.win 1).blk t).view.emb ((Rect.unit (s := S8192x512) (k1_off2 (grid1.coords t)) S1024x512.size (k1_off2_inb (grid1.coords t))).idx (ix2 k cc))) = _
  refine congrArg (fsOf V c) (funext fun a => Fin.ext ?_)
  match a with
  | ⟨0, _⟩ => show win1_1.index t (0 : Fin 2) * 8192 + 1 * (k1_off2 (grid1.coords t) 0 + 1 * k.val) = bk * 1024 + k.val; omega
  | ⟨1, _⟩ => show win1_1.index t (1 : Fin 2) * 512 + 1 * (k1_off2 (grid1.coords t) 1 + 1 * cc.val) = cc.val; omega

/-- The self-loop rows at the first point of a block row are rows (t / 8)·1024 … of the scaled features. -/
theorem ldI_apply (c : Dev nD) (t : Fin cfg1.N) (hc0 : condFirst (grid1.coords t)) (bi : ℕ) (hbi : t.val / 8 = bi) (r : Fin 1024) (cc : Fin 512) (hr : 1024 * bi + r.val < 8192) :
    (ldI (grid1.coords t) hc0 (iblk V c 1 t) : S1024x512.Idx → EReal) (ix2 r cc) = fsOf V c (ix2 ⟨1024 * bi + r.val, hr⟩ cc) := by
  obtain ⟨-, -, e2, e3, -⟩ := idx_facts t
  have o0 := off1_0 t
  have o1 := off1_1 t
  show fsOf V c (((cfg1.win 1).blk t).view.emb ((Rect.unit (s := S8192x512) (k1_off1 (grid1.coords t)) S1024x512.size (k1_off1_inb (grid1.coords t) hc0)).idx (ix2 r cc))) = _
  refine congrArg (fsOf V c) (funext fun a => Fin.ext ?_)
  match a with
  | ⟨0, _⟩ => show win1_1.index t (0 : Fin 2) * 8192 + 1 * (k1_off1 (grid1.coords t) 0 + 1 * r.val) = 1024 * bi + r.val; omega
  | ⟨1, _⟩ => show win1_1.index t (1 : Fin 2) * 512 + 1 * (k1_off1 (grid1.coords t) 1 + 1 * cc.val) = cc.val; omega

/-- The resident weights are the whole weights array. -/
theorem iblk2_apply (c : Dev nD) (t : Fin cfg1.N) (j : S512x512.Idx) : (iblk V c 2 t : S512x512.Idx → EReal) j = wOf V c j := by
  obtain ⟨-, -, -, -, e4, e5, -⟩ := idx_facts t
  show wOf V c (((cfg1.win 2).blk t).view.emb j) = _
  refine congrArg (wOf V c) (funext fun a => Fin.ext ?_)
  match a with
  | ⟨0, _⟩ => show win1_2.index t (0 : Fin 2) * 512 + 1 * (j 0).val = (j 0).val; omega
  | ⟨1, _⟩ => show win1_2.index t (1 : Fin 2) * 512 + 1 * (j 1).val = (j 1).val; omega

/-- An entry of a point's degree-factor block is an entry of the degree-factor column. -/
theorem iblk3_apply (c : Dev nD) (t : Fin cfg1.N) (bi : ℕ) (hbi : t.val / 8 = bi) (r : Fin 1024) (hr : 1024 * bi + r.val < 8192) :
    (iblk V c 3 t : S1024x1.Idx → EReal) (ix2 r (0 : Fin 1)) = dOf V c (ix2 ⟨1024 * bi + r.val, hr⟩ (0 : Fin 1)) := by
  obtain ⟨-, -, -, -, -, -, e6, e7, -⟩ := idx_facts t
  show dOf V c (((cfg1.win 3).blk t).view.emb (ix2 r (0 : Fin 1))) = _
  refine congrArg (dOf V c) (funext fun a => Fin.ext ?_)
  match a with
  | ⟨0, _⟩ => show win1_3.index t (0 : Fin 2) * 1024 + 1 * r.val = 1024 * bi + r.val; omega
  | ⟨1, _⟩ => show win1_3.index t (1 : Fin 2) * 1 + 1 * 0 = 0; omega

/-- The accumulator at (r, cc) after position `n`, and what position `n` adds to it, as functions of the position. -/
def accN (c : Dev nD) (r : Fin 1024) (cc : Fin 512) (n : ℕ) : EReal :=
  if h : n < cfg1.N then (outsAt V c n h).2 (ix2 r cc) else 0
/-- A point's adjacency block and its rows of the scaled features, as blocks of extended reals. -/
abbrev blkA (c : Dev nD) (t : Fin cfg1.N) : Vec Ideal S1024x1024 .f32 := iblk V c 0 t
abbrev blkF (c : Dev nD) (t : Fin cfg1.N) : Vec Ideal S1024x512 .bf16 := ldK (grid1.coords t) (iblk V c 1 t)
def partN (c : Dev nD) (r : Fin 1024) (cc : Fin 512) (n : ℕ) : EReal :=
  if h : n < cfg1.N then ∑ k : Fin 1024, blkA V c ⟨n, h⟩ (ix2 r k) * blkF V c ⟨n, h⟩ (ix2 k cc) else 0

/-- After the last point of a block row the accumulator at (r, cc) is the self-loop entry plus the whole row's product. -/
theorem acc_row (c : Dev nD) (t : Fin cfg1.N) (h7 : t.val % 8 = 7) (r : Fin 1024) (cc : Fin 512) (hR : 1024 * (t.val / 8) + r.val < 8192) :
    (outsAt V c t.val t.isLt).2 (ix2 r cc)
      = fsOf V c (ix2 ⟨1024 * (t.val / 8) + r.val, hR⟩ cc) + ∑ q : Fin 8192, adjOf V c (ix2 ⟨1024 * (t.val / 8) + r.val, hR⟩ q) * fsOf V c (ix2 q cc) := by
  have hN : cfg1.N = 64 := N_1
  have ht := t.isLt
  have h0 : accN V c r cc (t.val - 7) = fsOf V c (ix2 ⟨1024 * (t.val / 8) + r.val, hR⟩ cc) + partN V c r cc (t.val - 7) := by
    have hl : t.val - 7 < cfg1.N := by omega
    have hm : (t.val - 7) % 8 = 0 := by omega
    unfold accN partN
    rw [dif_pos hl, dif_pos hl]
    rw [show (outsAt V c (t.val - 7) hl).2 = _ from acc_first V c ⟨t.val - 7, hl⟩ hm, pay2_apply, pay1_apply]
    exact congrArg (· + _) (ldI_apply V c ⟨t.val - 7, hl⟩ _ (t.val / 8) (by show (t.val - 7) / 8 = t.val / 8; omega) r cc hR)
  have hs : ∀ s, s + 1 < 8 → accN V c r cc (t.val - 7 + (s + 1)) = accN V c r cc (t.val - 7 + s) + partN V c r cc (t.val - 7 + (s + 1)) := by
    intro s hs8
    have hl : t.val - 7 + (s + 1) < cfg1.N := by omega
    have hl' : t.val - 7 + s < cfg1.N := by omega
    unfold accN partN
    rw [dif_pos hl, dif_pos hl', dif_pos hl]
    rw [show (outsAt V c (t.val - 7 + (s + 1)) hl).2 = _ from acc_step V c ⟨t.val - 7 + (s + 1), hl⟩ (by show ¬(t.val - 7 + (s + 1)) % 8 = 0; omega), pay2_apply]
    rfl
  have hfold := Cert.SeedFold.fold_seed 8 (accN V c r cc) (partN V c r cc) _ (t.val - 7) h0 hs 7 (by norm_num)
  have hb : t.val - 7 + 7 = t.val := by omega
  rw [hb] at hfold
  have hacc : accN V c r cc t.val = (outsAt V c t.val t.isLt).2 (ix2 r cc) := dif_pos t.isLt
  rw [← hacc, hfold, Finset.sum_range, Cert.BlockSumN.sum_blocks_of_eq 8 1024 (by norm_num) (fun q => adjOf V c (ix2 ⟨1024 * (t.val / 8) + r.val, hR⟩ q) * fsOf V c (ix2 q cc))]
  refine congrArg (_ + ·) (Finset.sum_congr rfl fun s _ => ?_)
  have hsl : t.val - 7 + s.val < cfg1.N := by have := s.isLt; omega
  unfold partN
  rw [dif_pos hsl]
  refine Finset.sum_congr rfl fun k _ => ?_
  have hs8 := s.isLt
  exact congrArg₂ (· * ·)
    (iblk0_apply V c ⟨t.val - 7 + s.val, hsl⟩ (t.val / 8) s.val (by show (t.val - 7 + s.val) / 8 = t.val / 8; omega)
      (by show (t.val - 7 + s.val) % 8 = s.val; omega) r k hR (Cert.BlockSumN.blk_lt s k))
    (ldK_apply V c ⟨t.val - 7 + s.val, hsl⟩ s.val (by show (t.val - 7 + s.val) % 8 = s.val; omega) k cc (Cert.BlockSumN.blk_lt s k))

/-- The result array as one function of the four arrays the region reads. -/
def fusedOut (A : S8192x8192.Idx → EReal) (FS : S8192x512.Idx → EReal) (Wb : S512x512.Idx → EReal) (Dv : S8192x1.Idx → EReal) :
    S8192x512.Idx → EReal :=
  fun j => (∑ cc : Fin 512, (FS (ix2 (j 0) cc) + ∑ q : Fin 8192, A (ix2 (j 0) q) * FS (ix2 q cc)) * Wb (ix2 cc (j 1))) * Dv (ix2 (j 0) (0 : Fin 1))

/-- What the last point of a block row writes back is its block of `fusedOut`. -/
theorem flushed_eq (c : Dev nD) (t : Fin cfg1.N) (hf : (cfg1.win 4).flush t = true) :
    (dat V c).flushed 4 t = ((cfg1.win 4).blk t).view.read (Elt Ideal) (fusedOut (adjOf V c) (fsOf V c) (wOf V c) (dOf V c)) := by
  have h7 : t.val % 8 = 7 := (flush1_4 t).mp hf
  have hN : cfg1.N = 64 := N_1
  have ht := t.isLt
  obtain ⟨-, -, -, -, -, -, -, -, e8, e9, -⟩ := idx_facts t
  show (cfg1.win 4).cut (grid1.coords t) ((dat V c).after 4 t) = _
  rw [after_4, out_last V c t h7]
  funext j
  obtain ⟨r, o, rfl⟩ : ∃ (r : Fin 1024) (o : Fin 512), j = ix2 r o := ⟨j 0, j 1, eq_ix2 j⟩
  have hR : 1024 * (t.val / 8) + r.val < 8192 := by have := r.isLt; omega
  show k1_pay3 (outsAt V c t.val t.isLt).2 (iblk V c 2 t) (iblk V c 3 t) (ix2 r o) = fusedOut (adjOf V c) (fsOf V c) (wOf V c) (dOf V c) (((cfg1.win 4).blk t).view.emb (ix2 r o))
  have hrow : (((cfg1.win 4).blk t).view.emb (ix2 r o)) 0 = (⟨1024 * (t.val / 8) + r.val, hR⟩ : Fin 8192) := Fin.ext (by
    show win1_4.index t (0 : Fin 2) * 1024 + 1 * r.val = 1024 * (t.val / 8) + r.val; omega)
  have hcol : (((cfg1.win 4).blk t).view.emb (ix2 r o)) 1 = o := Fin.ext (by
    show win1_4.index t (1 : Fin 2) * 512 + 1 * o.val = o.val; omega)
  rw [pay3_apply]
  unfold fusedOut
  rw [hrow, hcol, iblk3_apply V c t (t.val / 8) rfl r hR]
  refine congrArg (· * _) (Finset.sum_congr rfl fun cc _ => ?_)
  rw [acc_row V c t h7 r cc hR, iblk2_apply V c t]

theorem mem_blk (t : Fin cfg1.N) (i : S8192x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v11).slice (win1_4.rect t)).set ↔ _
  rw [View.set_slice_whole, Rect.mem_set_unit]
  exact Iff.rfl

/-- The eight written-back blocks tile the result array. -/
theorem cover (i : S8192x512.Idx) : ∃ t : Fin cfg1.N, (cfg1.win 4).flush t = true ∧ i ∈ ((cfg1.win 4).blk t).view.set := by
  have hi0 : (i 0).val < 8192 := (i 0).isLt
  have hi1 : (i 1).val < 512 := (i 1).isLt
  have hN : cfg1.N = 64 := N_1
  have hlt : 8 * ((i 0).val / 1024) + 7 < cfg1.N := by omega
  obtain ⟨-, -, -, -, -, -, -, -, e8, e9, -⟩ := idx_facts ⟨8 * ((i 0).val / 1024) + 7, hlt⟩
  refine ⟨⟨8 * ((i 0).val / 1024) + 7, hlt⟩, (flush1_4 _).mpr (by show (8 * ((i 0).val / 1024) + 7) % 8 = 7; omega), ?_⟩
  rw [mem_blk]
  intro a
  match a with
  | ⟨0, _⟩ =>
    show win1_4.index ⟨8 * ((i 0).val / 1024) + 7, hlt⟩ (0 : Fin 2) * 1024 ≤ (i 0).val ∧ (i 0).val < win1_4.index ⟨8 * ((i 0).val / 1024) + 7, hlt⟩ (0 : Fin 2) * 1024 + 1024
    have e8' : win1_4.index ⟨8 * ((i 0).val / 1024) + 7, hlt⟩ (0 : Fin 2) = (8 * ((i 0).val / 1024) + 7) / 8 := e8
    omega
  | ⟨1, _⟩ =>
    show win1_4.index ⟨8 * ((i 0).val / 1024) + 7, hlt⟩ (1 : Fin 2) * 512 ≤ (i 1).val ∧ (i 1).val < win1_4.index ⟨8 * ((i 0).val / 1024) + 7, hlt⟩ (1 : Fin 2) * 512 + 512
    omega

/-- THE RESULT ARRAY of the fused region. -/
theorem final (c : Dev nD) : (dat V c).arrAt 4 cfg1.N = fusedOut (adjOf V c) (fsOf V c) (wOf V c) (dOf V c) :=
  (dat V c).arrAt_eq_of_cover 4 (fusedOut (adjOf V c) (fsOf V c) (wOf V c) (dOf V c)) (fun t hf => flushed_eq V c t hf) cover

end Cert.KernelIdeal.FusedValue

end
-- ==== Proof.GcnLaw.lean ====
/-
  The algebra that joins the two programs, over the extended reals.

  Write `d q` for the degree factor of row `q`. The kernel computes, at row `p`,
      (∑ c, (x p c · d p + ∑ j, a j · (x j c · d j)) · w c) · d p
  — the self-loop row seeds the accumulator, every row is scaled before the adjacency product, the last factor is
  applied after the product with the weights — and the reference
      ∑ c, (∑ j, ((d p · (a j + e j)) · d j) · x j c) · w c
  with `e` the row `p` of the identity matrix. For real entries the two are one number: `∑ j, e j · t j = t p`, and the
  rest is distributivity, which the extended reals have only away from the infinities — so the law is stated for entries
  that are reals. Also here: a cast of a finite real sum, the degree factor of a real degree is a real, the identity
  matrix's row sums to one.
-/
import Idealize.ShloMosaic.PureOps.Ideal.Laws
import Idealize.ShloMosaic.Lib.ValueIdx

noncomputable section

namespace Cert.GcnLaw

open scoped BigOperators
open Idealize.ShloMosaic

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem law_real {J C : Type} [Fintype J] [DecidableEq J] [Fintype C] (a e δ : J → ℝ) (x : J → C → ℝ) (w : C → ℝ) (p : J)
    (he : ∀ j, e j = if j = p then 1 else 0) :
    (∑ c, (x p c * δ p + ∑ j, a j * (x j c * δ j)) * w c) * δ p
      = ∑ c, (∑ j, ((δ p * (a j + e j)) * δ j) * x j c) * w c := by
  rw [Finset.sum_mul]
  refine Finset.sum_congr rfl fun c _ => ?_
  have h : ∑ j, ((δ p * (a j + e j)) * δ j) * x j c = δ p * (∑ j, a j * (x j c * δ j)) + δ p * (δ p * x p c) := by
    have h1 : ∀ j, ((δ p * (a j + e j)) * δ j) * x j c = δ p * (a j * (x j c * δ j)) + (if j = p then δ p * (δ j * x j c) else 0) := fun j => by
      rw [he j]; split <;> ring
    simp only [h1, Finset.sum_add_distrib, ← Finset.mul_sum, Finset.sum_ite_eq', Finset.mem_univ, if_true]
  rw [h]; ring

/-- The law over the extended reals, for entries that are reals. -/
theorem law {J C : Type} [Fintype J] [DecidableEq J] [Fintype C] (A E D : J → EReal) (X : J → C → EReal) (W : C → EReal) (p : J)
    (hA : ∀ j, ∃ r : ℝ, A j = r) (hD : ∀ j, ∃ r : ℝ, D j = r) (hX : ∀ j c, ∃ r : ℝ, X j c = r) (hW : ∀ c, ∃ r : ℝ, W c = r)
    (hE : ∀ j, E j = if j = p then 1 else 0) :
    (∑ c, (X p c * D p + ∑ j, A j * (X j c * D j)) * W c) * D p
      = ∑ c, (∑ j, ((D p * (A j + E j)) * D j) * X j c) * W c := by
  choose a ha using hA; choose δ hδ using hD; choose x hx using hX; choose w hw using hW
  have hE' : ∀ j, E j = (((if j = p then 1 else 0 : ℝ)) : EReal) := fun j => by rw [hE]; split <;> simp
  simp only [ha, hδ, hx, hw, hE']
  simp only [← EReal.coe_mul, ← EReal.coe_add, ← coe_sum]
  exact congrArg _ (law_real a _ δ x w p (fun _ => rfl))

/-- The degree factor: the inverse square root of a positive degree, zero otherwise. -/
def dfac (s : EReal) : EReal :=
  Scalar.select (Ideal.cmp .ogt s (Ideal.ofBits .f32 0x00000000#32)) (Ideal.rsqrt s) (Ideal.ofBits .f32 0x00000000#32)

/-- The degree factor of a real degree is a real. -/
theorem dfac_coe (r : ℝ) : ∃ q : ℝ, dfac (r : EReal) = (q : EReal) := by
  unfold dfac
  rw [Ideal.ofBits_zero_f32]
  by_cases h : 0 < r
  · refine ⟨(Real.sqrt r)⁻¹, ?_⟩
    have h' : (0 : EReal) < (r : EReal) := by exact_mod_cast h
    simp [Scalar.select, Ideal.cmp, h', Ideal.rsqrt_coe, not_lt.mpr h.le, h.ne']
  · refine ⟨0, ?_⟩
    have h' : ¬ (0 : EReal) < (r : EReal) := by exact_mod_cast h
    simp [Scalar.select, Ideal.cmp, h']

/-- A sum of reals is a real. -/
theorem sum_real {ι : Type} (s : Finset ι) (f : ι → EReal) (h : ∀ i, ∃ r : ℝ, f i = r) : ∃ r : ℝ, ∑ i ∈ s, f i = r := by
  choose g hg using h
  exact ⟨∑ i ∈ s, g i, by simp only [hg, coe_sum]⟩

/-- A row of the identity matrix sums to one. -/
theorem sum_delta {J : Type} [Fintype J] [DecidableEq J] (p : J) : ∑ j : J, (if j = p then (1 : EReal) else 0) = 1 := by
  rw [Finset.sum_ite_eq' Finset.univ p]; simp

end Cert.GcnLaw

end
-- ==== Proof.RefRead.lean ====
/-
  The reference's result read at an entry, over the extended reals. Write d q for the degree factor of row q — the
  inverse square root of the degree ∑ k, a q k + 1 where that is positive, zero otherwise — and e for the identity
  matrix. Entry (p, o) of the result is
      ∑ c, (∑ j, ((d p · (a p j + e p j)) · d j) · x j c) · w c o.
  The identity matrix is spelt by the program as a comparison of two index grids; its row q sums to one, so the degree
  the program sums, 0 + ∑ k, (a q k + e q k), is ∑ k, a q k + 1.
-/
import proofs.«112809_j50096498540571_2_alg».proof.Proof.Gen.ReferenceIdeal.Read
import proofs.«112809_j50096498540571_2_alg».proof.Proof.GcnLaw

noncomputable section

namespace Cert.ReferenceIdeal.RefValue

open Idealize.ShloMosaic Idealize.ShloMosaic.ValueIdx
open Cert.ReferenceIdeal Cert.ReferenceIdeal.Gen Cert.ReferenceIdeal.Read
open scoped BigOperators

/-- An entry of the identity matrix as the program spells it. -/
theorem eye_apply (p j : Fin 8192) : val_main_v5 (F := Ideal) (ix2 p j) = if j = p then 1 else 0 := by
  rw [val_main_v5_apply, val_main_v4_apply, val_main_v3_apply, val_main_v0_apply, val_main_v2_apply, val_main_c_apply, val_main_v1_apply]
  show (((IntOp.cmpi .eq (IntOp.addi (BitVec.ofNat 32 p.val) 0#32) (BitVec.ofNat 32 j.val)).toNat : ℝ) : EReal) = _
  have hp : p.val < 2 ^ 32 := by have := p.isLt; omega
  have hj : j.val < 2 ^ 32 := by have := j.isLt; omega
  by_cases h : j = p
  · subst h; simp [IntOp.cmpi, IntOp.addi]
  · have hne : ¬(BitVec.ofNat 32 p.val = BitVec.ofNat 32 j.val) := by
      intro e
      have e' := congrArg BitVec.toNat e
      simp only [BitVec.toNat_ofNat, Nat.mod_eq_of_lt hp, Nat.mod_eq_of_lt hj] at e'
      exact h (Fin.ext e'.symm)
    simp [IntOp.cmpi, IntOp.addi, hne, h]

/-- The degree of row q as the program sums it. -/
theorem v7_apply (A : S8192x8192.Idx → EReal) (q : Fin 8192) :
    val_main_v7 (F := Ideal) A (ix1 q) = (∑ k : Fin 8192, A (ix2 q k)) + 1 := by
  rw [val_main_v7_apply, val_main_cst_apply]
  have h6 : ∀ k : Fin 8192, val_main_v6 (F := Ideal) A (idx_main_v7 (ix1 q) k) = A (ix2 q k) + (if k = q then 1 else 0) := fun k => by
    have e : idx_main_v7 (ix1 q) k = ix2 q k := funext fun a => Fin.ext (by match a with | ⟨0, _⟩ => rfl | ⟨1, _⟩ => rfl)
    rw [e, val_main_v6_apply, eye_apply]; rfl
  simp only [h6, Finset.sum_add_distrib, Cert.GcnLaw.sum_delta]
  show Ideal.ofBits .f32 0x00000000#32 + _ = _
  rw [Ideal.ofBits_zero_f32, zero_add]

/-- The degree factor of row q. -/
def dR (A : S8192x8192.Idx → EReal) (q : Fin 8192) : EReal := Cert.GcnLaw.dfac ((∑ k : Fin 8192, A (ix2 q k)) + 1)

theorem v11_apply (A : S8192x8192.Idx → EReal) (q : Fin 8192) : val_main_v11 (F := Ideal) A (ix1 q) = dR A q := by
  rw [val_main_v11_apply, val_main_v9_apply, val_main_v10_apply, val_main_v8_apply, val_main_cst_0_apply, val_main_call0_v1_apply,
    val_main_call0_v0_apply, val_main_cst_1_apply, v7_apply]
  rfl

/-- An entry of the normalized adjacency matrix. -/
theorem v17_apply (A : S8192x8192.Idx → EReal) (p j : Fin 8192) :
    val_main_v17 (F := Ideal) A (ix2 p j) = (dR A p * (A (ix2 p j) + (if j = p then 1 else 0))) * dR A j := by
  have e1 : idx_main_v12 (idx_main_v13 (ix2 p j)) = ix1 p := funext fun a => Fin.ext (by match a with | ⟨0, _⟩ => rfl)
  have e2 : idx_main_v15 (idx_main_v16 (ix2 p j)) = ix1 j := funext fun a => Fin.ext (by match a with | ⟨0, _⟩ => rfl)
  rw [val_main_v17_apply, val_main_v14_apply, val_main_v13_apply, val_main_v12_apply, val_main_v16_apply, val_main_v15_apply,
    val_main_v6_apply, eye_apply, e1, e2, v11_apply, v11_apply]
  rfl

/-- THE REFERENCE'S RESULT at entry (p, o). -/
theorem ref_apply (A : S8192x8192.Idx → EReal) (X : S8192x512.Idx → EReal) (W : S512x512.Idx → EReal) (p : Fin 8192) (o : Fin 512) :
    val_main_v19 (F := Ideal) A X W (ix2 p o)
      = ∑ c : Fin 512, (∑ j : Fin 8192, ((dR A p * (A (ix2 p j) + (if j = p then 1 else 0))) * dR A j) * X (ix2 j c)) * W (ix2 c o) := by
  rw [val_main_v19_apply]
  refine Finset.sum_congr rfl fun c _ => ?_
  have e1 : lidx_main_v19 (ix2 p o) c = ix2 p c := funext fun a => Fin.ext (by match a with | ⟨0, _⟩ => rfl | ⟨1, _⟩ => rfl)
  have e2 : ridx_main_v19 (ix2 p o) c = ix2 c o := funext fun a => Fin.ext (by match a with | ⟨0, _⟩ => rfl | ⟨1, _⟩ => rfl)
  rw [e1, e2, val_main_v18_apply]
  refine congrArg (· * _) (Finset.sum_congr rfl fun j _ => ?_)
  have e3 : lidx_main_v18 (ix2 p c) j = ix2 p j := funext fun a => Fin.ext (by match a with | ⟨0, _⟩ => rfl | ⟨1, _⟩ => rfl)
  have e4 : ridx_main_v18 (ix2 p c) j = ix2 j c := funext fun a => Fin.ext (by match a with | ⟨0, _⟩ => rfl | ⟨1, _⟩ => rfl)
  rw [e3, e4, v17_apply]

end Cert.ReferenceIdeal.RefValue

end
-- ==== Proof.Bridge.lean ====
/-
  The kernel's result array is the reference's, entry by entry, over the extended reals, when the arguments hold reals.

  Between the two regions the host computes, from the row sums s the first region left: the degree s + 1, its factor d
  (the inverse square root where the degree is positive, zero otherwise), the features scaled row by row by d, and
  the weights; the changes of float format are the identity. So the four arrays the fused region reads are the
  adjacency matrix a, (q, c) ↦ x q c · d q, the weights w, and the column d, and its result at (p, o) is
      (∑ c, (x p c · d p + ∑ q, a p q · (x q c · d q)) · w c o) · d p.
  The reference's degree is the same number (the identity matrix's row sums to one), so its factor is the same d, and
  its result at (p, o) is ∑ c, (∑ j, ((d p · (a p j + e p j)) · d j) · x j c) · w c o. The two are equal by the law of
  the algebra module, whose finiteness hypotheses the precondition supplies.
-/
import proofs.«112809_j50096498540571_2_alg».proof.Proof.RunIdeal
import proofs.«112809_j50096498540571_2_alg».proof.Proof.RowSumValue
import proofs.«112809_j50096498540571_2_alg».proof.Proof.FusedValue
import proofs.«112809_j50096498540571_2_alg».proof.Proof.RefRead
import proofs.«112809_j50096498540571_2_alg».proof.Proof.GcnLaw
import Idealize.ShloMosaic.Lib.StableHlo.Run
import Idealize.ShloMosaic.PureOps.Ideal.Laws

set_option maxRecDepth 16384

noncomputable section

namespace Cert.KernelIdeal.Bridge

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen Cert.KernelIdeal.Run
open scoped BigOperators

variable (m : (ℓ : Loc nD τ sig) → Buf (Elt Ideal) ℓ) (c : Dev nD)

/-- The three argument arrays as launched, as functions on matrix indices. -/
abbrev argA : S8192x8192.Idx → EReal := m ((c : Thread nD τ).loc main_arg0)
abbrev argX : S8192x512.Idx → EReal := m ((c : Thread nD τ).loc main_arg1)
abbrev argW : S512x512.Idx → EReal := m ((c : Thread nD τ).loc main_arg2)

/-- The degree factor of row q, from the adjacency matrix. -/
abbrev dK (q : Fin 8192) : EReal := Cert.ReferenceIdeal.RefValue.dR (argA m c) q

/-! ## What the fused region is entered with -/

/-- The first region's result: the row sums of the adjacency matrix. -/
theorem rs_eq : (B1 m c (Proc.devRef .tc main_v0) : S8192x1.Idx → EReal) = Cert.KernelIdeal.RowSumValue.rowSum (argA m c) :=
  (B1_arr m c 1).trans (Cert.KernelIdeal.RowSumValue.final (E0 m) c)

theorem B1_arg1 : (B1 m c (Proc.devRef .tc main_arg1) : S8192x512.Idx → EReal) = argX m c := B1_of_ne m c main_arg1 (by decide)
theorem B1_arg2 : (B1 m c (Proc.devRef .tc main_arg2) : S512x512.Idx → EReal) = argW m c := B1_of_ne m c main_arg2 (by decide)

/-- The adjacency matrix reaches the fused region as launched. -/
theorem E4_arg0 : (E4 m c main_arg0 : S8192x8192.Idx → EReal) = argA m c :=
  calc B4 m c (Proc.devRef .tc main_arg0)
    _ = B3 m c (Proc.devRef .tc main_arg0) := StableHlo.after_of_writes_sub hostOps1_2 _ hostOps1_2_writes (by decide)
    _ = B2 m c (Proc.devRef .tc main_arg0) := StableHlo.after_of_writes_sub hostOps1_1 _ hostOps1_1_writes (by decide)
    _ = B1 m c (Proc.devRef .tc main_arg0) := StableHlo.after_of_writes_sub hostOps1 _ hostOps1_writes (by decide)
    _ = B0 m c (Proc.devRef .tc main_arg0) := (B1_arr m c 0).trans (((RowSum.dat (E0 m) c).arrAt_in 0 rfl _).trans (RowSum.A_eq (E0 m) c 0))
    _ = m ((c : Thread nD τ).loc main_arg0) := rfl

/-- The row sums, the features and the weights as the host stretches find them. -/
abbrev rsV : FVec Ideal S8192x1 .f32 := B1 m c (Proc.devRef .tc main_v0)
abbrev xV : FVec Ideal S8192x512 .f32 := B1 m c (Proc.devRef .tc main_arg1)
abbrev wV : FVec Ideal S512x512 .f32 := B1 m c (Proc.devRef .tc main_arg2)

/-- The degree as the host computes it from the row sums, and its factor. -/
abbrev degV : FVec Ideal S8192x1 .f32 :=
  addf (F := Ideal) (rsV m c) (broadcastInDim S8192x1 ![] bcast_S_S8192x1 (constant (F := Ideal) S_ .f32 0x3F800000#32))
abbrev facV : FVec Ideal S8192x1 .f32 :=
  select (cmpf (F := Ideal) .ogt (degV m c) (broadcastInDim S8192x1 ![] bcast_S_S8192x1 (constant (F := Ideal) S_ .f32 0x00000000#32)))
    (Host.rsqrt (F := Ideal) (degV m c)) (broadcastInDim S8192x1 ![] bcast_S_S8192x1 (id (constant (F := Ideal) S_ .f32 0x00000000#32)))

theorem E4_v6 : (E4 m c main_v6 : FVec Ideal S8192x1 .f32) = facV m c := by
  show StableHlo.after hostOps1_2 (StableHlo.after hostOps1_1 (StableHlo.after hostOps1 (B1 m c))) (Proc.devRef .tc main_v6) = _
  after_results <;> rfl

theorem E4_v9 : (E4 m c main_v9 : FVec Ideal S8192x512 .bf16)
    = truncf (F := Ideal) .bf16 (mulf (F := Ideal) (xV m c) (broadcastInDim S8192x512 ![0, 1] bcast_S8192x1_S8192x512_0_1 (facV m c))) bitsLt_bf16_f32 := by
  show StableHlo.after hostOps1_2 (StableHlo.after hostOps1_1 (StableHlo.after hostOps1 (B1 m c))) (Proc.devRef .tc main_v9) = _
  after_results <;> rfl

theorem E4_v10 : (E4 m c main_v10 : FVec Ideal S512x512 .bf16) = truncf (F := Ideal) .bf16 (wV m c) bitsLt_bf16_f32 := by
  show StableHlo.after hostOps1_2 (StableHlo.after hostOps1_1 (StableHlo.after hostOps1 (B1 m c))) (Proc.devRef .tc main_v10) = _
  after_results <;> rfl

theorem one_bits : Ideal.ofBits .f32 0x3F800000#32 = 1 := by simp [Ideal.ofBits, Ideal.ieee, -EReal.coe_mul]; norm_num

theorem bcast_const (b : BitVec 32) (i : S8192x1.Idx) :
    broadcastInDim S8192x1 ![] bcast_S_S8192x1 (constant (F := Ideal) S_ .f32 b) i = Ideal.ofBits .f32 b :=
  broadcastInDim_apply (![] : Fin 0 → Fin S8192x1.rank) bcast_S_S8192x1 (constant (F := Ideal) S_ .f32 b) i (fun a : Fin 0 => a.elim0) (fun a : Fin 0 => a.elim0)

/-- The degree factor the host computes is the reference's. -/
theorem facV_apply (q : Fin 8192) : facV m c (ix2 q (0 : Fin 1)) = dK m c q := by
  have hdeg : degV m c (ix2 q (0 : Fin 1)) = (∑ k : Fin 8192, argA m c (ix2 q k)) + 1 := by
    show rsV m c (ix2 q (0 : Fin 1)) + broadcastInDim S8192x1 ![] bcast_S_S8192x1 (constant (F := Ideal) S_ .f32 0x3F800000#32) (ix2 q (0 : Fin 1)) = _
    rw [show rsV m c = Cert.KernelIdeal.RowSumValue.rowSum (argA m c) from rs_eq m c, bcast_const, one_bits]
    rfl
  show Scalar.select (Ideal.cmp .ogt (degV m c (ix2 q (0 : Fin 1))) (broadcastInDim S8192x1 ![] bcast_S_S8192x1 (constant (F := Ideal) S_ .f32 0x00000000#32) (ix2 q (0 : Fin 1))))
      (Ideal.rsqrt (degV m c (ix2 q (0 : Fin 1)))) (broadcastInDim S8192x1 ![] bcast_S_S8192x1 (id (constant (F := Ideal) S_ .f32 0x00000000#32)) (ix2 q (0 : Fin 1))) = _
  rw [hdeg, show (id (constant (F := Ideal) S_ .f32 0x00000000#32)) = constant (F := Ideal) S_ .f32 0x00000000#32 from rfl, bcast_const]
  rfl

/-! ## The four arrays the fused region reads -/

theorem a_eq : Cert.KernelIdeal.FusedValue.adjOf (E4 m) c = argA m c := E4_arg0 m c

theorem d_apply (q : Fin 8192) : Cert.KernelIdeal.FusedValue.dOf (E4 m) c (ix2 q (0 : Fin 1)) = dK m c q := by
  show (E4 m c main_v6 : FVec Ideal S8192x1 .f32) (ix2 q (0 : Fin 1)) = _
  rw [E4_v6, facV_apply]

/-- The scaled features: row q of the features times the degree factor of row q. -/
theorem fs_apply (q : Fin 8192) (cc : Fin 512) : Cert.KernelIdeal.FusedValue.fsOf (E4 m) c (ix2 q cc) = argX m c (ix2 q cc) * dK m c q := by
  show (E4 m c main_v9 : FVec Ideal S8192x512 .bf16) (ix2 q cc) = _
  rw [E4_v9]
  show xV m c (ix2 q cc) * broadcastInDim S8192x512 ![0, 1] bcast_S8192x1_S8192x512_0_1 (facV m c) (ix2 q cc) = _
  rw [broadcastInDim_apply (![0, 1] : Fin 2 → Fin S8192x512.rank) bcast_S8192x1_S8192x512_0_1 (facV m c) (ix2 q cc) (ix2 q (0 : Fin 1)) (fun a => match a with
    | ⟨0, _⟩ => by show q.val = if (8192 : Nat) = 1 then 0 else q.val; rw [if_neg (by decide)]
    | ⟨1, _⟩ => by show 0 = if (1 : Nat) = 1 then 0 else cc.val; rw [if_pos rfl]), facV_apply,
    show xV m c = argX m c from B1_arg1 m c]

theorem w_apply (j : S512x512.Idx) : Cert.KernelIdeal.FusedValue.wOf (E4 m) c j = argW m c j := by
  show (E4 m c main_v10 : FVec Ideal S512x512 .bf16) j = _
  rw [E4_v10]
  show wV m c j = _
  rw [show wV m c = argW m c from B1_arg2 m c]

/-! ## The kernel's result at an entry -/

theorem kernel_apply (p : Fin 8192) (o : Fin 512) :
    Cert.KernelIdeal.FusedValue.fusedOut (Cert.KernelIdeal.FusedValue.adjOf (E4 m) c) (Cert.KernelIdeal.FusedValue.fsOf (E4 m) c)
        (Cert.KernelIdeal.FusedValue.wOf (E4 m) c) (Cert.KernelIdeal.FusedValue.dOf (E4 m) c) (ix2 p o)
      = (∑ cc : Fin 512, (argX m c (ix2 p cc) * dK m c p + ∑ q : Fin 8192, argA m c (ix2 p q) * (argX m c (ix2 q cc) * dK m c q)) * argW m c (ix2 cc o)) * dK m c p := by
  show (∑ cc : Fin 512, (Cert.KernelIdeal.FusedValue.fsOf (E4 m) c (ix2 p cc) + ∑ q : Fin 8192, Cert.KernelIdeal.FusedValue.adjOf (E4 m) c (ix2 p q) * Cert.KernelIdeal.FusedValue.fsOf (E4 m) c (ix2 q cc))
      * Cert.KernelIdeal.FusedValue.wOf (E4 m) c (ix2 cc o)) * Cert.KernelIdeal.FusedValue.dOf (E4 m) c (ix2 p (0 : Fin 1)) = _
  refine congrArg₂ (· * ·) (Finset.sum_congr rfl fun cc _ => ?_) (d_apply m c p)
  refine congrArg₂ (· * ·) (congrArg₂ (· + ·) (fs_apply m c p cc) (Finset.sum_congr rfl fun q _ => ?_)) (w_apply m c (ix2 cc o))
  exact congrArg₂ (· * ·) (congrFun (a_eq m c) (ix2 p q)) (fs_apply m c q cc)

/-! ## The two results are one function -/

theorem dK_real (hA : ∀ i, ∃ r : ℝ, argA m c i = r) (q : Fin 8192) : ∃ r : ℝ, dK m c q = r := by
  obtain ⟨s, hs⟩ := Cert.GcnLaw.sum_real Finset.univ (fun k : Fin 8192 => argA m c (ix2 q k)) (fun k => hA _)
  show ∃ r : ℝ, Cert.GcnLaw.dfac ((∑ k : Fin 8192, argA m c (ix2 q k)) + 1) = r
  rw [hs, show ((s : EReal) + 1) = ((s + 1 : ℝ) : EReal) from by simp]
  exact Cert.GcnLaw.dfac_coe _

/-- THE BRIDGE: what the fused region's write-backs leave is the reference's result term of the same arguments. -/
theorem result_eq (hA : ∀ i, ∃ r : ℝ, argA m c i = r) (hX : ∀ i, ∃ r : ℝ, argX m c i = r) (hW : ∀ i, ∃ r : ℝ, argW m c i = r) :
    (Fused.dat (E4 m) c).arrAt 4 cfg1.N = Cert.ReferenceIdeal.Read.val_main_v19 (F := Ideal) (argA m c) (argX m c) (argW m c) := by
  rw [Cert.KernelIdeal.FusedValue.final (E4 m) c]
  funext j
  obtain ⟨p, o, rfl⟩ : ∃ (p : Fin 8192) (o : Fin 512), j = ix2 p o := ⟨j 0, j 1, eq_ix2 j⟩
  rw [kernel_apply, Cert.ReferenceIdeal.RefValue.ref_apply]
  exact Cert.GcnLaw.law (fun q => argA m c (ix2 p q)) (fun j => if j = p then 1 else 0) (fun q => dK m c q) (fun q cc => argX m c (ix2 q cc))
    (fun cc => argW m c (ix2 cc o)) p (fun q => hA _) (dK_real m c hA) (fun q cc => hX _) (fun cc => hW _) (fun _ => rfl)

end Cert.KernelIdeal.Bridge

end
-- ==== Proof.Finite.lean ====
/-
  What the precondition says, over the extended reals: every entry of the three argument arrays is a real number.

  The predicate is the conjunction of three tests, one per array: every entry's absolute value is below +∞. An
  extended real whose absolute value is below +∞ is neither +∞ nor −∞ (the absolute value of −∞ is +∞), so it is a
  real.
-/
import proofs.«112809_j50096498540571_2_alg».proof.Pre_finite_inputs
import Idealize.ShloMosaic.Lib.ReduceAll
import Idealize.ShloMosaic.PureOps.Ideal.Laws
import Idealize.ShloMosaic.Lib.Pipeline.Value
import Idealize.ShloMosaic.Lib.ValueIdx

noncomputable section

namespace Cert.Pre_finite_inputs.Finite

open Idealize.ShloMosaic Cert.Pre_finite_inputs

instance : Subsingleton Cert.Pre_finite_inputs.S_.Idx := ⟨fun a b => funext fun d => d.elim0⟩

theorem inf_bits : Ideal.ofBits .f32 0x7F800000#32 = ⊤ := by simp [Ideal.ofBits, Ideal.ieee]

/-- An extended real whose absolute value is below +∞ is a real. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

variable [Facts]

/-- One test of the predicate: if every entry of an array passes, every entry is a real. -/
theorem real_of_all {s : Shape} {axes : List (Fin s.rank)} (a : FVec Ideal s .f32) (hb : S_.BroadcastsInDim s (![] : Fin 0 → Fin s.rank)) (hr : s.ReducesTo axes S_)
    (hS : 0 < S_.numel) (j : S_.Idx)
    (h : Host.reduce IntOp.andi (cmpf .olt (Host.absf a) (broadcastInDim s ![] hb (constant (F := Ideal) S_ .f32 0x7F800000#32))) (constantI S_ 1 1#1) hr hS j = 1#1)
    (i : s.Idx) : ∃ r : ℝ, a i = r := by
  have hi := Host.reduce_andi_all _ _ hr hS j h i
  have hbc : broadcastInDim s ![] hb (constant (F := Ideal) S_ .f32 0x7F800000#32) i = (⊤ : EReal) := by
    exact (broadcastInDim_apply (![] : Fin 0 → Fin s.rank) hb (constant (F := Ideal) S_ .f32 0x7F800000#32) i (fun a : Fin 0 => a.elim0) (fun a : Fin 0 => a.elim0)).trans inf_bits
  have hi' : Ideal.cmp .olt (max (a i) (-(a i))) (broadcastInDim s ![] hb (constant (F := Ideal) S_ .f32 0x7F800000#32) i) = 1#1 := hi
  rw [hbc] at hi'
  exact real_of_abs_lt _ hi'

/-- THE PRECONDITION, READ: every entry of every argument is a real. -/
theorem reals_of_pre (a0 : FVec Ideal S8192x8192 .f32) (a1 : FVec Ideal S8192x512 .f32) (a2 : FVec Ideal S512x512 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h (fun a => a.elim0)
  dsimp only [fn] at h0
  have h0' : IntOp.andi (IntOp.andi _ _) _ = 1#1 := h0
  obtain ⟨h01, h2⟩ := IntOp.andi_eq_one.1 h0'
  obtain ⟨hA, hB⟩ := IntOp.andi_eq_one.1 h01
  exact ⟨real_of_all a0 _ _ _ _ hA, real_of_all a1 _ _ _ _ hB, real_of_all a2 _ _ _ _ h2⟩

end Cert.Pre_finite_inputs.Finite

end
-- ==== Proof.lean ====
/-
  A graph-convolution layer with symmetric degree normalization: out = D^(-1/2) (A + I) D^(-1/2) X W, with D the
  diagonal matrix of the row sums of A + I and a zero factor where a degree is not positive.

  The kernel computes it in two passes over the adjacency matrix. The first pass sums each row, block by block, in an
  accumulator that is reset at the first block of a row and copied out at the last. From the row sums s the host forms
  the degree s + 1 (the identity contributes one to each row), its factor d, and the features scaled row by row by d.
  The second pass accumulates, per block row, the self-loop rows of the scaled features plus the products of the
  adjacency blocks with the scaled features; at the last block it multiplies with the weights and scales each row by d.
  The reference forms A + I, sums its rows, scales it on both sides and multiplies twice.

  Both kernel programs run to the end with their arguments unchanged (the two regions' accumulators are tracked in the
  regions' invariants; the run module folds the buffer contents through @main's five items), the reference by its
  generated run. The idealization rewrote nothing. Over the extended reals the two results are equal entry by entry
  when every argument entry is a real — which is what the precondition says — because then the degree factors are
  reals too, and the two spellings differ by distributivity, reassociation of finite sums, and the identity's row
  picking out one term.
-/
import proofs.«112809_j50096498540571_2_alg».proof.Defs
import proofs.«112809_j50096498540571_2_alg».proof.Proof.Gen.Kernel
import proofs.«112809_j50096498540571_2_alg».proof.Proof.Gen.KernelIdeal
import proofs.«112809_j50096498540571_2_alg».proof.Proof.Gen.ReferenceIdeal
import proofs.«112809_j50096498540571_2_alg».proof.Proof.Gen.Pre_finite_inputs
import proofs.«112809_j50096498540571_2_alg».proof.Proof.Gen.ReferenceIdeal.Run
import proofs.«112809_j50096498540571_2_alg».proof.Proof.Gen.ReferenceIdeal.Read
import proofs.«112809_j50096498540571_2_alg».proof.Proof.RunBits
import proofs.«112809_j50096498540571_2_alg».proof.Proof.RunIdeal
import proofs.«112809_j50096498540571_2_alg».proof.Proof.Bridge
import proofs.«112809_j50096498540571_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Run.frame m ρ

/-- So does its idealization. -/
theorem frame_ki : Cert.frame_KernelIdeal := fun m ρ _ => Cert.KernelIdeal.Run.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the reference's result term of the
    arguments: the reference by its run, the kernel by its run and the bridge, which uses that the arguments hold
    reals. -/
theorem algebraic : Cert.algebraic_KernelIdeal_ReferenceIdeal := by
  intro m ρ m' ρ' hpre hagree
  refine ⟨fun c => Cert.ReferenceIdeal.Read.val_main_v19 (F := Ideal) (Cert.KernelIdeal.Bridge.argA m c) (Cert.KernelIdeal.Bridge.argX m c) (Cert.KernelIdeal.Bridge.argW m c), ?_, ?_⟩
  · refine (θ_run Cert.KernelIdeal.defs _ _).mono (fun r h c => ⟨(h c).1.trans ?_, (h c).2⟩) (Cert.KernelIdeal.Run.run_result m ρ)
    obtain ⟨hA, hX, hW⟩ := Cert.Pre_finite_inputs.Finite.reals_of_pre _ _ _ (hpre c)
    exact Cert.KernelIdeal.Bridge.result_eq m c hA hX hW
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v19_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
